-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128x40 .f32) (main_arg10 : FVec F S128x40 .f32) (main_arg11 : FVec F S40 .f32) (main_v33 : IVec S_ 1) : IVec S_ 1 :=
  let main_v34 : FVec F S128x40 .f32 := Host.absf main_arg9
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x40 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x40 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S5000x1 : Shape := ⟨2, ![5000, 1]⟩
abbrev S1x128 : Shape := ⟨2, ![1, 128]⟩
abbrev S50000x40 : Shape := ⟨2, ![50000, 40]⟩
abbrev S5000x40 : Shape := ⟨2, ![5000, 40]⟩
abbrev S600000x40 : Shape := ⟨2, ![600000, 40]⟩
abbrev S1x40 : Shape := ⟨2, ![1, 40]⟩

abbrev nBuf : Space → Nat
  | .hbm => 68
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S128x40, .f32⟩
  | .hbm, ⟨11, _⟩ => ⟨S40, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x128, .f32⟩
  | .hbm, ⟨53, _⟩ => ⟨S50000x40, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x40, .f32⟩
  | .hbm, ⟨63, _⟩ => ⟨S_, .f32⟩
  | .hbm, ⟨64, _⟩ => ⟨S50000x40, .f32⟩
  | .hbm, ⟨65, _⟩ => ⟨S600000x1, .i32⟩
  | .hbm, ⟨66, _⟩ => ⟨S50000x40, .f32⟩
  | .hbm, ⟨67, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | .local _ .vmem, ⟨27, _⟩ => ⟨S5000x128, .f32⟩
  | .local _ .vmem, ⟨28, _⟩ => ⟨S5000x128, .f32⟩
  | .local _ .vmem, ⟨29, _⟩ => ⟨S5000x40, .f32⟩
  | .local _ .vmem, ⟨30, _⟩ => ⟨S5000x40, .f32⟩
  | .local _ .vmem, ⟨31, _⟩ => ⟨S5000x1, .f32⟩
  | .local _ .vmem, ⟨32, _⟩ => ⟨S5000x1, .f32⟩
  | .local _ .vmem, ⟨33, _⟩ => ⟨S128x40, .f32⟩
  | .local _ .vmem, ⟨34, _⟩ => ⟨S40, .f32⟩
  | .local _ .vmem, ⟨35, _⟩ => ⟨S5000x40, .f32⟩
  | .local _ .vmem, ⟨36, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S5000x40_S5000x40 : S5000x40.ShapeCasts S5000x40
  broadcasts_S5000x1_S5000x40 : S5000x1.Broadcasts S5000x40
  inb_S40_S40_0 : ∀ a, (![0] : Fin 1 → Nat) a + S40.size a ≤ S40.size a
  h_S40 : 0 < S40.numel
  shapeCasts_S40_S1x40 : S40.ShapeCasts S1x40
  shapeCasts_S1x40_S1x40 : S1x40.ShapeCasts S1x40
  broadcasts_S1x40_S5000x40 : S1x40.Broadcasts S5000x40
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S600000x1_S600000x40_1_0_n_n_0_1_140_wf : GatherDims.WF S50000x40 S600000x1 S600000x40 [1] [0] [] [0] [] 1 ![1, 40]
  scatter_S50000x40_S600000x1_S600000x40_1_0_0_1_wf : ScatterDims.WF S50000x40 S600000x1 S600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x40.size a ≤ S50000x40.size a
  hwx3_1 : ∀ i : grid3.Coords, EltTy.bits .f32 = 32 ∨ (Rect.block (s := S50000x40) S5000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x40.size a ≤ S128x40.size a
  hwx3_3 : ∀ i : grid3.Coords, EltTy.bits .f32 = 32 ∨ (Rect.block (s := S128x40) S128x40.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S40.size a ≤ S40.size a
  hwx3_4 : ∀ i : grid3.Coords, EltTy.bits .f32 = 32 ∨ (Rect.block (s := S40) S40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x40.size a ≤ S50000x40.size a
  hwx3_5 : ∀ i : grid3.Coords, EltTy.bits .f32 = 32 ∨ (Rect.block (s := S50000x40) S5000x40.size (cc3_transform_5 i) (hinb3_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S600000x1_S600000x40_1_0_n_n_0_1_140 : GatherDims S50000x40 S600000x1 S600000x40 where
  offsetDims := [1]
  collapsedSliceDims := [0]
  operandBatchingDims := []
  startIndicesBatchingDims := []
  startIndexMap := [0]
  indexVectorDim := 1
  sliceSizes := ![1, 40]
  wf := gather_S50000x40_S600000x1_S600000x40_1_0_n_n_0_1_140_wf
def scatter_S50000x40_S600000x1_S600000x40_1_0_0_1 : ScatterDims S50000x40 S600000x1 S600000x40 where
  updateWindowDims := [1]
  insertedWindowDims := [0]
  scatterDimsToOperandDims := [0]
  indexVectorDim := 1
  wf := scatter_S50000x40_S600000x1_S600000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x40, .f32⟩
  | .hbm, ⟨10, _⟩ => ⟨S128x40, .f32⟩
  | .hbm, ⟨11, _⟩ => ⟨S40, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S_, .f32⟩
  | .hbm, ⟨94, _⟩ => ⟨S600000, .f32⟩
  | .hbm, ⟨95, _⟩ => ⟨S_, .f32⟩
  | .hbm, ⟨96, _⟩ => ⟨S50000, .f32⟩
  | .hbm, ⟨97, _⟩ => ⟨S600000x1, .i32⟩
  | .hbm, ⟨98, _⟩ => ⟨S50000, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x40, .f32⟩
  | .hbm, ⟨106, _⟩ => ⟨S50000x40, .f32⟩
  | .hbm, ⟨107, _⟩ => ⟨S50000x40, .f32⟩
  | .hbm, ⟨108, _⟩ => ⟨S1x40, .f32⟩
  | .hbm, ⟨109, _⟩ => ⟨S50000x40, .f32⟩
  | .hbm, ⟨110, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The kernel program's run with its RESULT named.

  The program is four grid pipelines among stretches of host operations. The contents of the TensorCore's
  buffers at each boundary form a fold from the launch memory: a host stretch applies its operations, a
  pipeline leaves its arrays at what its write-backs produce and every other buffer untouched. Every weakly
  fair execution terminates with every unscoped buffer at the last boundary's contents; read at the result
  buffer this names the value the program returns, and read at an argument it gives back the launch contents.
-/
import proofs.«168502_j77575699300503_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    last boundary's contents and the twelve argument arrays as launched. -/
theorem run : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.RunValue

end
-- ==== Proof.Spec.lean ====
/-
  GraphSAGE with mean aggregation, three layers, as arithmetic on the extended reals.

  A node table is a matrix `h : [50000, 128]`. With the per-destination message sums `a` already formed
  (row `r` of `a` is the sum of the rows of `h` over the edges that end at node `r`) and with `c r` the
  inverse of that node's clamped in-degree, one layer sends `h` to

      h · w_self  +  (a ⊙ c) · w_neigh  +  b                                      (`dense`)

  entry by entry: `(a ⊙ c)` scales row `r` of `a` by `c r`, and `·` is the matrix product, a sum over
  the 128 input features. Layers 0 and 1 clamp the result below at zero. The last layer, whose output is
  only 40 wide, may instead transform first and aggregate afterwards: with `ms` the per-destination sums of
  the rows of `h · w_neigh`,

      h · w_self  +  ms ⊙ c  +  b                                                 (`combine`)

  The two forms of the last layer agree on finite data because summing over edges commutes with the
  matrix product (both are finite sums of real numbers); that law is proved where it is used.
-/
import Idealize.ShloMosaic.PureOps.Ideal
import Idealize.ShloMosaic.Lib.ValueIdx

noncomputable section

namespace Cert.Sage

open Idealize.ShloMosaic Idealize.ShloMosaic.ValueIdx

/-- A matrix of extended reals with `a` rows and `b` columns. -/
abbrev Mat (a b : Nat) := (⟨2, ![a, b]⟩ : Shape).Idx → EReal
/-- A vector of extended reals of length `a`. -/
abbrev Col (a : Nat) := (⟨1, ![a]⟩ : Shape).Idx → EReal

/-- Entry `(r, j)` of the matrix product `h · w`: the sum over the 128 input features. -/
def mm {D : Nat} (h : Mat 50000 128) (w : Mat 128 D) (r : Fin 50000) (j : Fin D) : EReal :=
  ∑ k : Fin 128, h (ix2 r k) * w (ix2 k j)

/-- Entry `(r, j)` of `(a ⊙ c) · w`: row `r` of `a` scaled by `c r`, then the matrix product. -/
def mmScaled {D : Nat} (a : Mat 50000 128) (c : Mat 50000 1) (w : Mat 128 D) (r : Fin 50000) (j : Fin D) : EReal :=
  ∑ k : Fin 128, (a (ix2 r k) * c (ix2 r (0 : Fin 1))) * w (ix2 k j)

/-- Entry `(r, j)` of one layer, the message sums `a` and the inverse degrees `c` given:
    `h · w_self + (a ⊙ c) · w_neigh + b`. -/
def dense {D : Nat} (h a : Mat 50000 128) (c : Mat 50000 1) (ws wn : Mat 128 D) (b : Col D)
    (r : Fin 50000) (j : Fin D) : EReal :=
  (mm h ws r j + mmScaled a c wn r j) + b (ix1 j)

/-- Entry `(r, j)` of the last layer in its transform-then-aggregate form, the sums `ms` of the
    transformed messages given: `h · w_self + ms ⊙ c + b`. -/
def combine (h : Mat 50000 128) (ms : Mat 50000 40) (c : Mat 50000 1) (ws : Mat 128 40) (b : Col 40)
    (r : Fin 50000) (j : Fin 40) : EReal :=
  (mm h ws r j + ms (ix2 r j) * c (ix2 r (0 : Fin 1))) + b (ix1 j)

/-- A layer clamped below at zero, as a whole matrix. -/
def denseRelu (h a : Mat 50000 128) (c : Mat 50000 1) (ws wn : Mat 128 128) (b : Col 128) : Mat 50000 128 :=
  fun p => max (dense h a c ws wn b (p 0) (p 1)) 0

/-- The plain matrix product, as a whole matrix. -/
def mmMat {D : Nat} (h : Mat 50000 128) (w : Mat 128 D) : Mat 50000 D :=
  fun p => mm h w (p 0) (p 1)

/-- The transform-then-aggregate last layer, as a whole matrix. -/
def combineMat (h : Mat 50000 128) (ms : Mat 50000 40) (c : Mat 50000 1) (ws : Mat 128 40) (b : Col 40) : Mat 50000 40 :=
  fun p => combine h ms c ws b (p 0) (p 1)

/-- Every entry of an array is a real number (neither infinity). -/
def AllReal {s : Shape} (x : s.Idx → EReal) : Prop := ∀ i, ∃ r : ℝ, x i = (r : EReal)

end Cert.Sage

end
-- ==== Proof.LibGatherRows.lean ====
/-
  ROW LOOKUPS READ AT AN INDEX: two general facts about `stablehlo.gather`.

  A lookup `x[idx]` of whole rows, with the row numbers given as an integer column `idx : [M, 1]`, is a gather whose
  start index map names operand axis 0 only, whose index vector sits on axis 1 of the start indices (of extent 1: one
  scalar per start index), and whose slice is one row:

  * ROWS OF A MATRIX `x : [N, D]`: offset_dims `[1]`, collapsed_slice_dims `[0]`, start_index_map `[0]`,
    index_vector_dim `1`, slice_sizes `[1, D]`, result `[M, D]` (`rowsDims`, `gather_rows_apply`);
  * ENTRIES OF A VECTOR `x : [N]`: offset_dims `[]`, collapsed_slice_dims `[0]`, start_index_map `[0]`,
    index_vector_dim `1`, slice_sizes `[1]`, result `[M]` (`elemsDims`, `gather_elems_apply`).

  In both, result row `e` reads operand row `idx[e, 0]`, the start index read as a SIGNED integer and clamped into
  `[0, N − 1]`: the slice is one row high, so the largest start at which it fits is `N − 1`. In the matrix case, entry
  `(e, k)` of the result is entry `k` of that row: operand axis 1 is not named by the start index map, so its slice starts
  at `0` (no clamp is involved on that axis), it is not a batching axis, and it is the one kept axis, read by the
  result's one offset axis, whose coordinate is `k`.

  The operand index of a gather is, per operand axis, `start + batch coordinate + offset coordinate`
  (`GatherDims.operandIdx`); the three general lemmas first in the file open each summand's case split once.
-/
import Idealize.ShloMosaic.Lib.ValueIdx

noncomputable section

namespace Cert.Lib

open Idealize.ShloMosaic Idealize.ShloMosaic.ValueIdx

/-! ## The summands of a gather's operand index, case by case -/

section Summands
variable {s si t : Shape} (d : GatherDims s si t)

/-- On an operand axis that the start index map does not name, the slice starts at `0`. -/
theorem gather_start_of_not_mem {w : Nat} (j : t.Idx) (idx : IVec si w) (a : Fin s.rank) (ha : a ∉ d.startIndexMap) :
    d.start j idx a = 0 := by
  unfold GatherDims.start; rw [dif_neg ha]

/-- On an operand axis that the start index map names, the slice starts at that axis's component of the start index,
    read signed and clamped so that the slice fits. -/
theorem gather_start_of_mem {w : Nat} (j : t.Idx) (idx : IVec si w) (a : Fin s.rank) (ha : a ∈ d.startIndexMap) :
    d.start j idx a
      = min (idx (d.siIdx j ⟨d.startIndexMap.idxOf a, List.idxOf_lt_length_iff.2 ha⟩)).toInt.toNat
          (s.size a - d.sliceSizes a) := by
  unfold GatherDims.start; rw [dif_pos ha]

/-- On a kept operand axis (neither collapsed nor batching) the offset coordinate is the result's coordinate on the
    offset axis in the same position. -/
theorem gather_offCoord_of_mem (j : t.Idx) (a : Fin s.rank) (ha : a ∈ d.sKept) :
    d.offCoord j a
      = (j (d.offsetDims[d.sKept.idxOf a]'(by rw [d.offset_length]; exact List.idxOf_lt_length_iff.2 ha))).val := by
  unfold GatherDims.offCoord; rw [dif_pos ha]

end Summands

/-- In `Fin 2`, `1 ≠ 0`. -/
theorem fin2_one_ne_zero : (1 : Fin 2) ≠ 0 := by decide

/-! ## Rows of a matrix -/

section Rows
variable {α : Type}

/-- The dimension numbers of a row lookup: operand `[N, D]`, start indices `[M, 1]`, result `[M, D]`; their
    conditions `wf` are decided on a program's literal shapes. -/
abbrev rowsDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE ROW LOOKUP READ AT `(e, k)`: entry `k` of the operand's row `idx[e, 0]`, that start index read signed and
    clamped into `[0, N − 1]`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowsDims N D M wf) x idx (ix2 e k)
      = x (ix2 (⟨min (idx (ix2 e (0 : Fin 1))).toInt.toNat (N - 1), by omega⟩ : Fin N) k) := by
  unfold Host.gather
  congr 1
  funext a
  match a with
  | ⟨0, _⟩ =>
    -- axis 0: the clamped start index, no batch coordinate, no offset coordinate (the axis is collapsed)
    refine Fin.ext ?_
    show (rowsDims N D M wf).start (ix2 e k) idx 0 + (rowsDims N D M wf).batchCoord (ix2 e k) 0
      + (rowsDims N D M wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D M wf).startIndexMap from List.mem_singleton.mpr rfl)]
    have hsi : (rowsDims N D M wf).siIdx (ix2 e k) ⟨List.idxOf (0 : Fin 2) (rowsDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batch coordinate, offset coordinate k (the one kept axis)
    refine Fin.ext ?_
    have h1 : (1 : Fin 2) ∉ (rowsDims N D M wf).startIndexMap :=
      fun h => fin2_one_ne_zero (List.mem_singleton.mp h)
    have hk : (1 : Fin 2) ∈ (rowsDims N D M wf).sKept :=
      (GatherDims.mem_sKept _ _).mpr ⟨fun h => fin2_one_ne_zero (List.mem_singleton.mp h), List.not_mem_nil⟩
    have hs : (rowsDims N D M wf).start (ix2 e k) idx 1 = 0 := gather_start_of_not_mem _ _ _ _ h1
    have hb : (rowsDims N D M wf).batchCoord (ix2 e k) 1 = 0 :=
      GatherDims.batchCoord_eq_zero _ _ _ List.not_mem_nil
    have ho : (rowsDims N D M wf).offCoord (ix2 e k) 1 = k.val :=
      (gather_offCoord_of_mem _ _ _ hk).trans rfl
    show (rowsDims N D M wf).start (ix2 e k) idx 1 + (rowsDims N D M wf).batchCoord (ix2 e k) 1
      + (rowsDims N D M wf).offCoord (ix2 e k) 1 = k.val
    rw [hs, hb, ho, Nat.add_zero, Nat.zero_add]

end Rows

/-! ## Entries of a vector -/

section Elems
variable {α : Type}

/-- The dimension numbers of an entry lookup: operand `[N]`, start indices `[M, 1]`, result `[M]`; their conditions
    `wf` are decided on a program's literal shapes. -/
abbrev elemsDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY LOOKUP READ AT `e`: the operand's entry `idx[e, 0]`, that start index read signed and clamped into
    `[0, N − 1]`. -/
theorem gather_elems_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (elemsDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (elemsDims N M wf).start (ix1 e) idx 0 + (elemsDims N M wf).batchCoord (ix1 e) 0
    + (elemsDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N M wf).startIndexMap from List.mem_singleton.mpr rfl)]
  have hsi : (elemsDims N M wf).siIdx (ix1 e) ⟨List.idxOf (0 : Fin 1) (elemsDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Elems

end Cert.Lib

end
-- ==== Proof.LibScatterAddRows.lean ====
/-
  ROW-WISE ACCUMULATING SCATTER READ AT AN INDEX: a general fact about `stablehlo.scatter` with an `add` body.

  Adding update rows into the rows of a matrix `x : [N, D]`, with the row numbers given as an integer column
  `idx : [M, 1]` and the updates `upd : [M, D]` (what `x.at[idx].add(upd)` and a segment sum lower to), is a scatter
  with update_window_dims `[1]`, inserted_window_dims `[0]`, scatter_dims_to_operand_dims `[0]` and
  index_vector_dim `1` (`rowsScatterDims`).

  The operand index an update index `(e, j)` lands at is, per operand axis, `start + window coordinate`
  (`ScatterDims.resultIdx?`):

  * on operand axis 0, the start is the row number `idx[e, 0]`, read as a SIGNED integer and NOT clamped, and the
    window coordinate is `0` (axis 0 is an inserted window axis);
  * on operand axis 1, the start is `0` (the axis is not named by scatter_dims_to_operand_dims) and the window
    coordinate is `j` (axis 1 is the operand's one kept axis, read by the updates' one window axis).

  So update `(e, j)` lands at `(idx[e, 0], j)` when `0 ≤ idx[e, 0] < N`, and is dropped otherwise
  (`resultIdx?_rows`). Hence the scatter's value at `(n, k)` is the operand's entry plus the sum, over the update rows
  `e` whose row number is `n`, of `upd[e, k]` (`scatterAdd_rows_apply`): the sum over the two-dimensional update
  indices that land at `(n, k)` is re-indexed along `e ↦ (e, k)`.
-/
import Idealize.ShloMosaic.PureOps.Ideal
import Idealize.ShloMosaic.Lib.ValueIdx

noncomputable section

namespace Cert.Lib

open Idealize.ShloMosaic Idealize.ShloMosaic.ValueIdx

/-- The dimension numbers of a row-wise scatter: operand `[N, D]`, scatter indices `[M, 1]` (one row number per update
    row), updates `[M, D]`; update_window_dims `[1]`, inserted_window_dims `[0]`, scatter_dims_to_operand_dims `[0]`,
    index_vector_dim `1`. -/
abbrev rowsScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- In `Fin 2`, `1 ≠ 0`. -/
theorem scatter_fin2_one_ne_zero : (1 : Fin 2) ≠ 0 := by decide

section Summands
variable {N D M w : Nat} (wf : ScatterDims.WF ⟨2, ![N, D]⟩ ⟨2, ![M, 1]⟩ ⟨2, ![M, D]⟩ [1] [0] [0] 1)

/-- On operand axis 0 the window of update `(e, j)` starts at the row number `idx[e, 0]`, read signed. -/
theorem scatter_rows_start0 (idx : IVec ⟨2, ![M, 1]⟩ w) (e : Fin M) (j : Fin D) :
    (rowsScatterDims N D M wf).start (ix2 e j) idx 0 = (idx (ix2 e (0 : Fin 1))).toInt := by
  unfold ScatterDims.start
  rw [dif_pos (show (0 : Fin 2) ∈ (rowsScatterDims N D M wf).scatterDimsToOperandDims from
    List.mem_singleton.mpr rfl)]
  have hsi : (rowsScatterDims N D M wf).siIdx (ix2 e j)
      ⟨List.idxOf (0 : Fin 2) (rowsScatterDims N D M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the scatter does not index, the window starts at `0`. -/
theorem scatter_rows_start1 (idx : IVec ⟨2, ![M, 1]⟩ w) (e : Fin M) (j : Fin D) :
    (rowsScatterDims N D M wf).start (ix2 e j) idx 1 = 0 := by
  unfold ScatterDims.start
  rw [dif_neg (fun h => scatter_fin2_one_ne_zero (List.mem_singleton.mp h))]

/-- Operand axis 0 is an inserted window axis: its window coordinate is `0`. -/
theorem scatter_rows_window0 (e : Fin M) (j : Fin D) :
    (rowsScatterDims N D M wf).window (ix2 e j) 0 = 0 := by
  unfold ScatterDims.window
  rw [dif_neg]
  intro h
  have := (List.mem_filter.mp h).2
  simp at this

/-- Operand axis 1 is the one kept axis: its window coordinate is the update's column `j`. -/
theorem scatter_rows_window1 (e : Fin M) (j : Fin D) :
    (rowsScatterDims N D M wf).window (ix2 e j) 1 = j.val := by
  have hk : (1 : Fin 2) ∈ (rowsScatterDims N D M wf).sKept := by
    refine List.mem_filter.mpr ⟨List.mem_finRange _, ?_⟩
    simpa using scatter_fin2_one_ne_zero
  unfold ScatterDims.window
  rw [dif_pos hk]
  rfl

end Summands

/-! ## Where an update lands -/

section Lands
variable {N D M w : Nat} (wf : ScatterDims.WF ⟨2, ![N, D]⟩ ⟨2, ![M, 1]⟩ ⟨2, ![M, D]⟩ [1] [0] [0] 1)

/-- Update `(e, j)` lands at operand index `(n, k)` exactly when its row number `idx[e, 0]`, read signed, is `n` and
    its column `j` is `k`; an update whose row number is outside `[0, N)` lands nowhere. -/
theorem resultIdx?_rows (idx : IVec ⟨2, ![M, 1]⟩ w) (e : Fin M) (j : Fin D) (n : Fin N) (k : Fin D) :
    (rowsScatterDims N D M wf).resultIdx? (ix2 e j) idx = some (ix2 n k)
      ↔ (idx (ix2 e (0 : Fin 1))).toInt = (n.val : Int) ∧ j = k := by
  have hs0 := scatter_rows_start0 (N := N) wf idx e j
  have hs1 := scatter_rows_start1 (N := N) wf idx e j
  have hw0 := scatter_rows_window0 (N := N) wf e j
  have hw1 := scatter_rows_window1 (N := N) wf e j
  unfold ScatterDims.resultIdx?
  split
  · rename_i h
    constructor
    · intro heq
      have hf := Option.some.inj heq
      have h0 := congrArg (fun f => (f 0).val) hf
      have h1 := congrArg (fun f => (f 1).val) hf
      simp only [hs0, hs1, hw0, hw1] at h0 h1
      have hh0 := (h 0).1
      rw [hs0, hw0] at hh0
      have e0 : ((ix2 n k : (⟨2, ![N, D]⟩ : Shape).Idx) 0).val = n.val := rfl
      have e1 : ((ix2 n k : (⟨2, ![N, D]⟩ : Shape).Idx) 1).val = k.val := rfl
      rw [e0] at h0
      rw [e1] at h1
      refine ⟨by omega, Fin.ext (by omega)⟩
    · rintro ⟨hn, rfl⟩
      congr 1
      funext a
      refine Fin.ext ?_
      match a with
      | ⟨0, _⟩ =>
        show ((rowsScatterDims N D M wf).start (ix2 e j) idx 0
          + ((rowsScatterDims N D M wf).window (ix2 e j) 0 : Int)).toNat = n.val
        rw [hs0, hw0, hn]; omega
      | ⟨1, _⟩ =>
        show ((rowsScatterDims N D M wf).start (ix2 e j) idx 1
          + ((rowsScatterDims N D M wf).window (ix2 e j) 1 : Int)).toNat = j.val
        rw [hs1, hw1]; omega
  · rename_i h
    constructor
    · intro heq; exact absurd heq (by simp)
    · rintro ⟨hn, rfl⟩
      exfalso
      apply h
      intro a
      match a with
      | ⟨0, _⟩ =>
        show 0 ≤ (rowsScatterDims N D M wf).start (ix2 e j) idx 0
            + ((rowsScatterDims N D M wf).window (ix2 e j) 0 : Int)
          ∧ (rowsScatterDims N D M wf).start (ix2 e j) idx 0
            + ((rowsScatterDims N D M wf).window (ix2 e j) 0 : Int) < (N : Int)
        rw [hs0, hw0, hn]
        have := n.isLt
        omega
      | ⟨1, _⟩ =>
        show 0 ≤ (rowsScatterDims N D M wf).start (ix2 e j) idx 1
            + ((rowsScatterDims N D M wf).window (ix2 e j) 1 : Int)
          ∧ (rowsScatterDims N D M wf).start (ix2 e j) idx 1
            + ((rowsScatterDims N D M wf).window (ix2 e j) 1 : Int) < (D : Int)
        rw [hs1, hw1]
        have := j.isLt
        omega

end Lands

/-! ## The scatter read at an index -/

/-- THE ACCUMULATING ROW SCATTER READ AT `(n, k)`: the operand's entry plus the sum, over the update rows `e` whose row
    number `idx[e, 0]` (read as a SIGNED integer, not clamped) is `n`, of the update's entry `(e, k)`. -/
theorem scatterAdd_rows_apply {N D M w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (k : Fin D) :
    Ideal.hostScatterAdd (rowsScatterDims N D M wf) x idx upd (ix2 n k)
      = x (ix2 n k) + ∑ e ∈ Finset.univ.filter (fun e : Fin M => (idx (ix2 e (0 : Fin 1))).toInt = (n.val : Int)), upd (ix2 e k) := by
  unfold Ideal.hostScatterAdd
  congr 1
  -- every update index is `(e, j)`; it lands at `(n, k)` iff `idx[e, 0] = n` and `j = k`
  have hland : ∀ J : (⟨2, ![M, D]⟩ : Shape).Idx,
      (rowsScatterDims N D M wf).resultIdx? J idx = some (ix2 n k)
        ↔ (idx (ix2 (J 0 : Fin M) (0 : Fin 1))).toInt = (n.val : Int) ∧ (J 1 : Fin D) = k := by
    intro J
    obtain ⟨a, b, rfl⟩ : ∃ (a : Fin M) (b : Fin D), J = ix2 a b := ⟨J 0, J 1, eq_ix2 J⟩
    exact resultIdx?_rows wf idx a b n k
  refine Finset.sum_nbij' (fun J => (J 0 : Fin M)) (fun e => ix2 e k) ?_ ?_ ?_ ?_ ?_
  · intro J hJ
    rw [Finset.mem_filter] at hJ
    exact Finset.mem_filter.mpr ⟨Finset.mem_univ _, ((hland J).mp hJ.2).1⟩
  · intro e he
    rw [Finset.mem_filter] at he
    exact Finset.mem_filter.mpr ⟨Finset.mem_univ _, (resultIdx?_rows wf idx e k n k).mpr ⟨he.2, rfl⟩⟩
  · intro J hJ
    rw [Finset.mem_filter] at hJ
    have hk := ((hland J).mp hJ.2).2
    obtain ⟨a, b, rfl⟩ : ∃ (a : Fin M) (b : Fin D), J = ix2 a b := ⟨J 0, J 1, eq_ix2 J⟩
    have hb : b = k := hk
    subst hb
    rfl
  · intro e _
    rfl
  · intro J hJ
    rw [Finset.mem_filter] at hJ
    have hk := ((hland J).mp hJ.2).2
    obtain ⟨a, b, rfl⟩ : ∃ (a : Fin M) (b : Fin D), J = ix2 a b := ⟨J 0, J 1, eq_ix2 J⟩
    have hb : b = k := hk
    subst hb
    rfl

end Cert.Lib

end
-- ==== Proof.HostTerms.lean ====
/-
  The host-side pieces both programs share, and what they are entry by entry.

  * `srcCol src`: the source node of each edge as a column of row numbers, a negative number wrapped once by the
    number of nodes (jnp's indexing convention); `dstCol dst`: the destination nodes as a column.
  * `agg128 h src dst` / `agg40 h src dst`: the per-destination message sums — gather the source rows of `h`,
    then add them into a zero table at the destination rows. Entry `(r, k)` is the sum, over the edges whose
    destination (read as a signed integer) is `r`, of entry `k` of the edge's source row of `h`, the source row
    clamped into the table (`agg128_apply`, `agg40_apply`).
  * `dmax dst`: the in-degree of each node (ones added up at the destination rows) clamped below at one: always
    at least one (`one_le_dmax`). `invDeg dst`: one over it, as a column (`invDeg_apply`).
-/
import proofs.«168502_j77575699300503_2_alg».proof.Proof.Gen.KernelIdeal
import proofs.«168502_j77575699300503_2_alg».proof.Proof.Spec
import proofs.«168502_j77575699300503_2_alg».proof.Proof.LibGatherRows
import proofs.«168502_j77575699300503_2_alg».proof.Proof.LibScatterAddRows
import Idealize.ShloMosaic.PureOps.Ideal.Laws
import Idealize.ShloMosaic.Lib.IdealHost
import Idealize.ShloMosaic.Lib.Pipeline.Value

set_option maxRecDepth 16384

noncomputable section

namespace Cert.Sage

open Idealize.ShloMosaic Idealize.ShloMosaic.ValueIdx Cert.KernelIdeal Cert.KernelIdeal.Facts₀

/-- Source row numbers as a column; a negative number is wrapped once by the number of nodes. -/
def srcCol (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- Destination row numbers as a column. -/
def dstCol (dst : IVec S600000 32) : IVec S600000x1 32 :=
  broadcastInDim S600000x1 ![0] bcast_S600000_S600000x1_0 dst

/-- Per-destination sums of the source rows of a 128-wide table. -/
def agg128 (h : FVec Ideal S50000x128 .f32) (src dst : IVec S600000 32) : FVec Ideal S50000x128 .f32 :=
  Host.scatterAdd scatter_S50000x128_S600000x1_S600000x128_1_0_0_1
    (broadcastInDim S50000x128 ![] bcast_S_S50000x128 (constant (F := Ideal) S_ .f32 0x00000000#32)) (dstCol dst)
    (Host.gather gather_S50000x128_S600000x1_S600000x128_1_0_n_n_0_1_1128 h (srcCol src))

/-- Per-destination sums of the source rows of a 40-wide table. -/
def agg40 (h : FVec Ideal S50000x40 .f32) (src dst : IVec S600000 32) : FVec Ideal S50000x40 .f32 :=
  Host.scatterAdd scatter_S50000x40_S600000x1_S600000x40_1_0_0_1
    (broadcastInDim S50000x40 ![] bcast_S_S50000x40 (constant (F := Ideal) S_ .f32 0x00000000#32)) (dstCol dst)
    (Host.gather gather_S50000x40_S600000x1_S600000x40_1_0_n_n_0_1_140 h (srcCol src))

/-- The in-degree of each node: ones added up at the destination rows. -/
def deg (dst : IVec S600000 32) : FVec Ideal S50000 .f32 :=
  Host.scatterAdd scatter_S50000_S600000x1_S600000_n_0_0_1
    (broadcastInDim S50000 ![] bcast_S_S50000 (constant (F := Ideal) S_ .f32 0x00000000#32)) (dstCol dst)
    (broadcastInDim S600000 ![] bcast_S_S600000 (constant (F := Ideal) S_ .f32 0x3F800000#32))

/-- The in-degree of each node, clamped below at one. -/
def dmax (dst : IVec S600000 32) : FVec Ideal S50000 .f32 :=
  maximumf (deg dst) (broadcastInDim S50000 ![] bcast_S_S50000 (constant (F := Ideal) S_ .f32 0x3F800000#32))

/-- One over the clamped in-degree, as a column. -/
def invDeg (dst : IVec S600000 32) : FVec Ideal S50000x1 .f32 :=
  shapeCast S50000x1
    (Host.divf (broadcastInDim S50000 ![] bcast_S_S50000 (constant (F := Ideal) S_ .f32 0x3F800000#32)) (dmax dst))
    shapeCasts_S50000_S50000x1

/-- The edges that end at node `r`: those whose destination number, read signed, is `r`. -/
def edgesTo (dst : IVec S600000 32) (r : Fin 50000) : Finset (Fin 600000) :=
  Finset.univ.filter (fun e : Fin 600000 => (dstCol dst (ix2 e (0 : Fin 1))).toInt = (r.val : Int))

/-- The source row an edge reads: its wrapped source number, read signed and clamped into the table. -/
def srcRow (src : IVec S600000 32) (e : Fin 600000) : Fin 50000 :=
  ⟨min (srcCol src (ix2 e (0 : Fin 1))).toInt.toNat (50000 - 1), by omega⟩

/-- A constant scalar broadcast to any shape reads the constant's value everywhere. -/
theorem splat_apply {T : Shape} (h : (⟨0, ![]⟩ : Shape).BroadcastsInDim T ![]) (b : BitVec (FTy.bits .f32)) (j : T.Idx) :
    broadcastInDim T ![] h (constant (F := Ideal) (⟨0, ![]⟩ : Shape) .f32 b) j = Ideal.ofBits .f32 b :=
  (broadcastInDim_scalar_apply h _ j).trans (constant_apply b ix0)

theorem one_le_max_one (x y : EReal) (hy : y = 1) : 1 ≤ max x y := by
  subst hy; exact le_max_right x 1

/-- A clamped degree is at least one. -/
theorem one_le_dmax (dst : IVec S600000 32) (i : S50000.Idx) : 1 ≤ dmax dst i := by
  unfold dmax
  generalize deg dst = dg
  rw [maximumf_apply]
  exact one_le_max_one _ _ ((splat_apply _ _ _).trans Ideal.ofBits_one_f32)

/-- The inverse-degree column at row `r` is one over the clamped degree of node `r`. -/
theorem invDeg_apply (dst : IVec S600000 32) (r : Fin 50000) :
    invDeg dst (ix2 r (0 : Fin 1)) = Ideal.div 1 (dmax dst (ix1 r)) := by
  unfold invDeg
  generalize dmax dst = dm
  have hrm : (S50000.rowMajor (ix1 r)).val = (S50000x1.rowMajor (ix2 r (0 : Fin 1))).val := by
    rw [Shape.rowMajor_val_one, Shape.rowMajor_val_two]
    show r.val = r.val * 1 + 0
    omega
  rw [shapeCast_apply _ shapeCasts_S50000_S50000x1 (ix2 r (0 : Fin 1)) (ix1 r) hrm, hostDivf_apply, splat_apply,
    Ideal.ofBits_one_f32]

theorem wfScatter128 : ScatterDims.WF ⟨2, ![50000, 128]⟩ ⟨2, ![600000, 1]⟩ ⟨2, ![600000, 128]⟩ [1] [0] [0] 1 := by decide
theorem wfScatter40 : ScatterDims.WF ⟨2, ![50000, 40]⟩ ⟨2, ![600000, 1]⟩ ⟨2, ![600000, 40]⟩ [1] [0] [0] 1 := by decide
theorem wfGather128 : GatherDims.WF ⟨2, ![50000, 128]⟩ ⟨2, ![600000, 1]⟩ ⟨2, ![600000, 128]⟩ [1] [0] [] [0] [] 1 ![1, 128] := by decide
theorem wfGather40 : GatherDims.WF ⟨2, ![50000, 40]⟩ ⟨2, ![600000, 1]⟩ ⟨2, ![600000, 40]⟩ [1] [0] [] [0] [] 1 ![1, 40] := by decide

/-- Entry `(r, k)` of the message sums of a 128-wide table: the sum over the edges ending at `r` of entry `k` of the
    edge's source row. -/
theorem agg128_apply (h : FVec Ideal S50000x128 .f32) (src dst : IVec S600000 32) (r : Fin 50000) (k : Fin 128) :
    agg128 h src dst (ix2 r k) = ∑ e ∈ edgesTo dst r, h (ix2 (srcRow src e) k) := by
  unfold agg128 edgesTo srcRow
  have e1 : ∀ (x : FVec Ideal S50000x128 .f32) (u : FVec Ideal S600000x128 .f32),
      Host.scatterAdd scatter_S50000x128_S600000x1_S600000x128_1_0_0_1 x (dstCol dst) u
        = Ideal.hostScatterAdd (Cert.Lib.rowsScatterDims 50000 128 600000 wfScatter128) x (dstCol dst) u := fun _ _ => rfl
  have e2 : Host.gather gather_S50000x128_S600000x1_S600000x128_1_0_n_n_0_1_1128 h (srcCol src)
      = Host.gather (Cert.Lib.rowsDims 50000 128 600000 wfGather128) h (srcCol src) := rfl
  rw [e1, e2, Cert.Lib.scatterAdd_rows_apply, splat_apply, Ideal.ofBits_zero_f32, zero_add]
  refine Finset.sum_congr rfl fun e _ => ?_
  exact Cert.Lib.gather_rows_apply (by decide) wfGather128 h (srcCol src) e k

/-- Entry `(r, k)` of the message sums of a 40-wide table: the sum over the edges ending at `r` of entry `k` of the
    edge's source row. -/
theorem agg40_apply (h : FVec Ideal S50000x40 .f32) (src dst : IVec S600000 32) (r : Fin 50000) (k : Fin 40) :
    agg40 h src dst (ix2 r k) = ∑ e ∈ edgesTo dst r, h (ix2 (srcRow src e) k) := by
  unfold agg40 edgesTo srcRow
  have e1 : ∀ (x : FVec Ideal S50000x40 .f32) (u : FVec Ideal S600000x40 .f32),
      Host.scatterAdd scatter_S50000x40_S600000x1_S600000x40_1_0_0_1 x (dstCol dst) u
        = Ideal.hostScatterAdd (Cert.Lib.rowsScatterDims 50000 40 600000 wfScatter40) x (dstCol dst) u := fun _ _ => rfl
  have e2 : Host.gather gather_S50000x40_S600000x1_S600000x40_1_0_n_n_0_1_140 h (srcCol src)
      = Host.gather (Cert.Lib.rowsDims 50000 40 600000 wfGather40) h (srcCol src) := rfl
  rw [e1, e2, Cert.Lib.scatterAdd_rows_apply, splat_apply, Ideal.ofBits_zero_f32, zero_add]
  refine Finset.sum_congr rfl fun e _ => ?_
  exact Cert.Lib.gather_rows_apply (by decide) wfGather40 h (srcCol src) e k

end Cert.Sage

end
-- ==== Proof.Algebra.lean ====
/-
  The arithmetic behind the equivalence, on the extended reals.

  * Dividing by a nonzero `d` is multiplying by `1 / d`: a row of message sums divided by the clamped degree
    is the same row scaled by the inverse degree (`mul_div_one`). A clamped degree is at least one, so its
    inverse is a real number (`div_one_real`).
  * Sums and products of real numbers are real, so a layer of finite data is finite (`denseRelu_real`).
  * Summing over edges commutes with the matrix product on finite data (`agg_commutes`): for a finite set of
    edges E with source rows ρ, `(∑_{e∈E} (h·w)[ρ e, j]) · c = ∑_k ((∑_{e∈E} h[ρ e, k]) · c) · w[k, j]` — both sides
    are finite sums of real numbers, equal by exchanging the two sums and distributing. With it the
    transform-then-aggregate form of the last layer is the aggregate-then-transform form (`combine_eq_dense`).
-/
import proofs.«168502_j77575699300503_2_alg».proof.Proof.Spec

noncomputable section

namespace Cert.Sage

open Idealize.ShloMosaic Idealize.ShloMosaic.ValueIdx

/-- A real number, as an extended real. -/
def IsR (x : EReal) : Prop := ∃ r : ℝ, x = (r : EReal)

theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases le_total x y with h | h
  · rw [max_eq_right h]; exact hy
  · rw [max_eq_left h]; exact hx
theorem IsR.sum {ι : Type*} (s : Finset ι) (f : ι → EReal) (h : ∀ k ∈ s, IsR (f k)) : IsR (∑ k ∈ s, f k) :=
  Finset.sum_induction f IsR (fun _ _ => IsR.add) IsR.zero h

/-- The coercion of the reals into the extended reals commutes with finite sums. -/
theorem coe_sum {ι : Type*} (s : Finset ι) (f : ι → ℝ) : ((∑ k ∈ s, f k : ℝ) : EReal) = ∑ k ∈ s, (f k : EReal) := by
  classical
  refine Finset.induction_on s (by simp) (fun a s ha ih => ?_)
  rw [Finset.sum_insert ha, Finset.sum_insert ha, EReal.coe_add, ih]

/-- Off zero, multiplying by `1 / d` is dividing by `d`, on every extended real. -/
theorem mul_div_one {d : EReal} (hd : d ≠ 0) (x : EReal) : x * Ideal.div 1 d = Ideal.div x d := by
  unfold Ideal.div
  rw [if_neg hd, if_neg hd, one_mul]

/-- Something at least one is not zero. -/
theorem ne_zero_of_one_le {d : EReal} (hd : 1 ≤ d) : d ≠ 0 := by
  intro h
  rw [h] at hd
  exact absurd hd (not_le.mpr (by exact_mod_cast (zero_lt_one : (0 : ℝ) < 1)))

/-- The inverse of something at least one (a real number, or `+∞`, whose inverse is `0`) is a real number. -/
theorem div_one_real {d : EReal} (hd : 1 ≤ d) : IsR (Ideal.div 1 d) := by
  have h0 : d ≠ 0 := ne_zero_of_one_le hd
  unfold Ideal.div
  rw [if_neg h0, one_mul]
  induction d using EReal.rec with
  | bot => exact absurd hd (not_le.mpr (by exact_mod_cast EReal.bot_lt_coe (1 : ℝ)))
  | coe r => exact ⟨r⁻¹, (EReal.coe_inv r).symm⟩
  | top => exact ⟨0, by simp⟩

/-- A layer of real data, clamped below at zero, is real. -/
theorem denseRelu_real {h a : Mat 50000 128} {c : Mat 50000 1} {ws wn : Mat 128 128} {b : Col 128}
    (hh : AllReal h) (ha : AllReal a) (hc : AllReal c) (hws : AllReal ws) (hwn : AllReal wn) (hb : AllReal b) :
    AllReal (denseRelu h a c ws wn b) := by
  intro p
  unfold denseRelu dense mm mmScaled
  exact IsR.max (IsR.add (IsR.add (IsR.sum _ _ fun k _ => IsR.mul (hh _) (hws _))
    (IsR.sum _ _ fun k _ => IsR.mul (IsR.mul (ha _) (hc _)) (hwn _))) (hb _)) IsR.zero

/-- Summing over a finite set of edges commutes with the matrix product, on real data: the sum over the edges of the
    transformed source rows, scaled by `c`, is the product of the scaled sum of the source rows with the weights. -/
theorem agg_commutes (h : Mat 50000 128) (hh : AllReal h) (wn : Mat 128 40) (hwn : AllReal wn) (cr : EReal) (hc : IsR cr)
    (E : Finset (Fin 600000)) (ρ : Fin 600000 → Fin 50000) (j : Fin 40) :
    (∑ e ∈ E, mm h wn (ρ e) j) * cr = ∑ k : Fin 128, ((∑ e ∈ E, h (ix2 (ρ e) k)) * cr) * wn (ix2 k j) := by
  choose H hH using hh
  choose W hW using hwn
  obtain ⟨C, rfl⟩ := hc
  simp only [mm, hH, hW, ← EReal.coe_mul, ← coe_sum]
  congr 1
  rw [Finset.sum_comm, Finset.sum_mul]
  refine Finset.sum_congr rfl fun k _ => ?_
  rw [← Finset.sum_mul]
  ring

/-- The last layer, transform-then-aggregate, is the layer aggregate-then-transform, when the node table and the
    neighbour weights are real, the inverse degrees are real, and both message sums run over the same edges
    `E r` with the same source rows `ρ`. -/
theorem combine_eq_dense (h : Mat 50000 128) (hh : AllReal h) (ws wn : Mat 128 40) (hwn : AllReal wn) (b : Col 40)
    (c : Mat 50000 1) (hc : AllReal c) (E : Fin 50000 → Finset (Fin 600000)) (ρ : Fin 600000 → Fin 50000)
    (ms : Mat 50000 40) (a : Mat 50000 128)
    (hms : ∀ r j, ms (ix2 r j) = ∑ e ∈ E r, mm h wn (ρ e) j)
    (ha : ∀ r k, a (ix2 r k) = ∑ e ∈ E r, h (ix2 (ρ e) k))
    (r : Fin 50000) (j : Fin 40) : combine h ms c ws b r j = dense h a c ws wn b r j := by
  unfold combine dense mmScaled
  rw [hms r j, agg_commutes h hh wn hwn _ (hc _) (E r) ρ j]
  simp only [ha]

end Cert.Sage

end
-- ==== Proof.Model.lean ====
/-
  The three layers as functions of the twelve arguments, and the two forms of the result.

  `hid1` and `hid2` are the hidden tables after layers 0 and 1. The result is the last layer of `hid2`, either
  transform-then-aggregate (`outK`: the product with the neighbour weights is taken first and its rows are then summed
  per destination) or aggregate-then-transform (`outR`: the rows of `hid2` are summed per destination and the sums
  are then multiplied by the neighbour weights). On finite data the two agree (`outK_eq_outR`): the hidden tables are
  finite (sums and products of real numbers, the inverse clamped degrees being real), both message sums run over the
  same edges with the same source rows, and a finite sum over edges commutes with the matrix product.
-/
import proofs.«168502_j77575699300503_2_alg».proof.Proof.HostTerms
import proofs.«168502_j77575699300503_2_alg».proof.Proof.Algebra

set_option maxRecDepth 16384

noncomputable section

namespace Cert.Sage

open Idealize.ShloMosaic Idealize.ShloMosaic.ValueIdx Cert.KernelIdeal Cert.KernelIdeal.Facts₀

/-- The hidden table after layer 0. -/
def hid1 (x0 : Mat 50000 128) (x1 x2 : IVec S600000 32) (x3 x4 : Mat 128 128) (x5 : Col 128) : Mat 50000 128 :=
  denseRelu x0 (agg128 x0 x1 x2) (invDeg x2) x3 x4 x5

/-- The hidden table after layer 1. -/
def hid2 (x0 : Mat 50000 128) (x1 x2 : IVec S600000 32) (x3 x4 : Mat 128 128) (x5 : Col 128)
    (x6 x7 : Mat 128 128) (x8 : Col 128) : Mat 50000 128 :=
  denseRelu (hid1 x0 x1 x2 x3 x4 x5) (agg128 (hid1 x0 x1 x2 x3 x4 x5) x1 x2) (invDeg x2) x6 x7 x8

/-- The result, the last layer transform-then-aggregate. -/
def outK (x0 : Mat 50000 128) (x1 x2 : IVec S600000 32) (x3 x4 : Mat 128 128) (x5 : Col 128)
    (x6 x7 : Mat 128 128) (x8 : Col 128) (x9 x10 : Mat 128 40) (x11 : Col 40) : Mat 50000 40 :=
  combineMat (hid2 x0 x1 x2 x3 x4 x5 x6 x7 x8) (agg40 (mmMat (hid2 x0 x1 x2 x3 x4 x5 x6 x7 x8) x10) x1 x2) (invDeg x2) x9 x11

/-- The result, the last layer aggregate-then-transform. -/
def outR (x0 : Mat 50000 128) (x1 x2 : IVec S600000 32) (x3 x4 : Mat 128 128) (x5 : Col 128)
    (x6 x7 : Mat 128 128) (x8 : Col 128) (x9 x10 : Mat 128 40) (x11 : Col 40) : Mat 50000 40 :=
  fun p => dense (hid2 x0 x1 x2 x3 x4 x5 x6 x7 x8) (agg128 (hid2 x0 x1 x2 x3 x4 x5 x6 x7 x8) x1 x2) (invDeg x2) x9 x10 x11 (p 0) (p 1)

/-- Message sums of a real table are real: finite sums of real numbers. -/
theorem agg128_real {h : Mat 50000 128} (hh : AllReal h) (x1 x2 : IVec S600000 32) : AllReal (agg128 h x1 x2) := by
  intro i
  obtain ⟨r, k, rfl⟩ : ∃ (r : Fin 50000) (k : Fin 128), i = ix2 r k := ⟨i 0, i 1, eq_ix2 i⟩
  rw [agg128_apply]
  exact IsR.sum _ _ fun e _ => hh _

/-- The inverse clamped degrees are real. -/
theorem invDeg_real (x2 : IVec S600000 32) : AllReal (invDeg x2) := by
  intro i
  obtain ⟨r, z, rfl⟩ : ∃ (r : Fin 50000) (z : Fin 1), i = ix2 r z := ⟨i 0, i 1, eq_ix2 i⟩
  obtain rfl : z = 0 := Subsingleton.elim _ _
  rw [invDeg_apply]
  exact div_one_real (one_le_dmax _ _)

theorem hid1_real {x0 : Mat 50000 128} (x1 x2 : IVec S600000 32) {x3 x4 : Mat 128 128} {x5 : Col 128}
    (h0 : AllReal x0) (h3 : AllReal x3) (h4 : AllReal x4) (h5 : AllReal x5) : AllReal (hid1 x0 x1 x2 x3 x4 x5) :=
  denseRelu_real h0 (agg128_real h0 x1 x2) (invDeg_real x2) h3 h4 h5

theorem hid2_real {x0 : Mat 50000 128} (x1 x2 : IVec S600000 32) {x3 x4 : Mat 128 128} {x5 : Col 128}
    {x6 x7 : Mat 128 128} {x8 : Col 128}
    (h0 : AllReal x0) (h3 : AllReal x3) (h4 : AllReal x4) (h5 : AllReal x5)
    (h6 : AllReal x6) (h7 : AllReal x7) (h8 : AllReal x8) : AllReal (hid2 x0 x1 x2 x3 x4 x5 x6 x7 x8) :=
  denseRelu_real (hid1_real x1 x2 h0 h3 h4 h5) (agg128_real (hid1_real x1 x2 h0 h3 h4 h5) x1 x2) (invDeg_real x2) h6 h7 h8

/-- On finite data the two forms of the result agree. -/
theorem outK_eq_outR {x0 : Mat 50000 128} (x1 x2 : IVec S600000 32) {x3 x4 : Mat 128 128} {x5 : Col 128}
    {x6 x7 : Mat 128 128} {x8 : Col 128} (x9 : Mat 128 40) {x10 : Mat 128 40} (x11 : Col 40)
    (h0 : AllReal x0) (h3 : AllReal x3) (h4 : AllReal x4) (h5 : AllReal x5)
    (h6 : AllReal x6) (h7 : AllReal x7) (h8 : AllReal x8) (h10 : AllReal x10) :
    outK x0 x1 x2 x3 x4 x5 x6 x7 x8 x9 x10 x11 = outR x0 x1 x2 x3 x4 x5 x6 x7 x8 x9 x10 x11 := by
  have hh := hid2_real x1 x2 h0 h3 h4 h5 h6 h7 h8
  unfold outK outR combineMat
  generalize hid2 x0 x1 x2 x3 x4 x5 x6 x7 x8 = h2 at hh ⊢
  funext p
  obtain ⟨r, j, rfl⟩ : ∃ (r : Fin 50000) (j : Fin 40), p = ix2 r j := ⟨p 0, p 1, eq_ix2 p⟩
  exact combine_eq_dense h2 hh x9 x10 h10 x11 (invDeg x2) (invDeg_real x2) (edgesTo x2) (srcRow x1)
    (agg40 (mmMat h2 x10) x1 x2) (agg128 h2 x1 x2)
    (fun r j => agg40_apply (mmMat h2 x10) x1 x2 r j) (fun r k => agg128_apply h2 x1 x2 r k) r j

end Cert.Sage

end
-- ==== Proof.DenseBlocks0.lean ====
/-
  The dense layer of region 0, block by block and then as one matrix.

  The region's grid has ten points; point `t` reads rows `5000 t … 5000 t + 4999` of the node table, of the
  message sums and of the inverse degrees, reads the two weight matrices and the bias whole, and writes the same
  rows of the output. What it writes at entry (r, j) of its block is

      max ((Σ_k h(r,k) · w_self(k,j) + Σ_k (a(r,k) · c(r)) · w_neigh(k,j)) + b(j)) 0

  of the blocks it read: the roundings to the narrower format are the identity on the extended reals, the shape
  casts to the same shape are the identity, the column of inverse degrees is broadcast along the features and
  the bias along the rows, and each matrix product with a zero accumulator is the sum over the 128 contracted
  features. A block's entry (r, j) is the array's entry (5000 t + r, j), so block `t` of the output is block `t`
  of the clamped dense layer of the six arrays; the ten blocks cover the 50000 rows (row `r` is in block
  `r / 5000`), so after the region the output array is that layer.
-/
import proofs.«168502_j77575699300503_2_alg».proof.Proof.Spec
import proofs.«168502_j77575699300503_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.Blocks

namespace Dense0

/-- The index maps of the [5000,128] by [128,128] product: the left factor is read at the output's row and the
    contraction position, the right factor at the contraction position and the output's column. -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] matrix product with a zero accumulator, read at entry (r, j): the sum over the
    128 contracted features of the products of row r of the left factor and column j of the right. -/
theorem matmul128_apply {φ₁ φ₂ : FTy} (a : FVec Ideal S5000x128 φ₁) (w : FVec Ideal S128x128 φ₂) (r : Fin 5000) (j : Fin 128) :
    matmul (F := Ideal) dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun ax => Fin.ext (by
    match ax with
    | ⟨0, _⟩ => exact lhs128_0 _ _
    | ⟨1, _⟩ => exact (lhs128_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun ax => Fin.ext (by
    match ax with
    | ⟨0, _⟩ => exact (rhs128_0 _ _).trans hk
    | ⟨1, _⟩ => exact rhs128_1 _ _)
  rw [el, er]

/-- An `[a, 1]` column broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dense layer's payload at entry (r, j) of a block: the two matrix products over the 128 features, the
    second of the message sums scaled row by row by the inverse degree, plus the bias, clamped below at zero. -/
theorem pay0_apply (x0 x1 : Vec Ideal S5000x128 .f32) (x2 : Vec Ideal S5000x1 .f32) (x3 x4 : Vec Ideal S128x128 .f32)
    (x5 : Vec Ideal S128 .f32) (r : Fin 5000) (j : Fin 128) :
    k0_pay1 (F := Ideal) x0 x1 x2 x3 x4 x5 (ix2 r j)
      = max (((∑ k : Fin 128, x0 (ix2 r k) * x3 (ix2 k j))
              + ∑ k : Fin 128, (x1 (ix2 r k) * x2 (ix2 r (0 : Fin 1))) * x4 (ix2 k j)) + x5 (ix1 j)) 0 := by
  unfold k0_pay1
  have hzero : (FloatOps.ofBits (F := Ideal) FTy.f32 0x00000000#32) = (0 : EReal) := Ideal.ofBits_zero_f32
  simp only [shapeCast_self]
  rw [maximumf_apply, broadcast_apply, hzero, addf_apply, addf_apply, matmul128_apply, matmul128_apply,
    broadcastTo_1b_ab_apply, shapeCast_a_1a_apply]
  simp only [truncf_apply, mulf_apply, broadcastTo_a1_ab_apply]

/-- Row `r` of block `t` of a 50000-row array cut into ten blocks of 5000 rows is row `5000 t + r`. -/
theorem row_lt {t r : ℕ} (ht : t < 10) (hr : r < 5000) : 5000 * t + r < 50000 := by omega

/-- The payload of block `t`, its row blocks and whole weight and bias arrays given as parts of the six
    arrays, is the clamped dense layer of those arrays at the block's place: entry (r, j) of the block is
    entry (5000 t + r, j) of the layer. -/
theorem block_value (A0 A1 : Cert.Sage.Mat 50000 128) (A2 : Cert.Sage.Mat 50000 1) (A3 A4 : Cert.Sage.Mat 128 128)
    (A5 : Cert.Sage.Col 128)
    (x0 x1 : Vec Ideal S5000x128 .f32) (x2 : Vec Ideal S5000x1 .f32) (x3 x4 : Vec Ideal S128x128 .f32)
    (x5 : Vec Ideal S128 .f32) (t : ℕ) (ht : t < 10)
    (h0 : ∀ (r : Fin 5000) (k : Fin 128), x0 (ix2 r k) = A0 (ix2 (⟨5000 * t + r.val, row_lt ht r.isLt⟩ : Fin 50000) k))
    (h1 : ∀ (r : Fin 5000) (k : Fin 128), x1 (ix2 r k) = A1 (ix2 (⟨5000 * t + r.val, row_lt ht r.isLt⟩ : Fin 50000) k))
    (h2 : ∀ (r : Fin 5000), x2 (ix2 r (0 : Fin 1)) = A2 (ix2 (⟨5000 * t + r.val, row_lt ht r.isLt⟩ : Fin 50000) (0 : Fin 1)))
    (h3 : x3 = A3) (h4 : x4 = A4) (h5 : x5 = A5) (r : Fin 5000) (j : Fin 128) :
    k0_pay1 (F := Ideal) x0 x1 x2 x3 x4 x5 (ix2 r j)
      = Cert.Sage.denseRelu A0 A1 A2 A3 A4 A5 (ix2 (⟨5000 * t + r.val, row_lt ht r.isLt⟩ : Fin 50000) j) := by
  subst h3 h4 h5
  rw [pay0_apply]
  simp only [h0, h1, h2]
  rfl

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices at grid point `t`, decided over the ten points: the three row-blocked inputs and the
    output are at row block `t`, column block 0; the weights and the bias are whole, at block 0. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What grid point `t` writes back is block `t` of the clamped dense layer of the six arrays as the region
    finds them. -/
theorem flushed0_eq (c : Dev nD) (t : Fin cfg0.N) :
    (dat0 (F := Ideal) V c).flushed 6 t = ((cfg0.win 6).blk t).view.read (Elt Ideal)
      (Cert.Sage.denseRelu (V c main_arg0) (V c main_v18) (V c main_v8) (V c main_arg3) (V c main_arg4) (V c main_arg5)) := by
  show (cfg0.win 6).cut (grid0.coords t) ((dat0 V c).after 6 t) = _
  rw [after0_6]
  unfold out0_6
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  obtain ⟨e00, e01, e10, e11, e20, e21, e30, e31, e40, e41, e50, e60, e61⟩ := block_indices0 t
  have hN : t.val < 10 := Nat.lt_of_lt_of_eq t.isLt (show cfg0.N = 10 from N_0)
  funext y
  have hr : (y 0).val < 5000 := (y 0).isLt
  have hj : (y 1).val < 128 := (y 1).isLt
  have hy : (cfg0.win 6).xinj (grid0.coords t) y = ix2 (⟨(y 0).val, hr⟩ : Fin 5000) (⟨(y 1).val, hj⟩ : Fin 128) :=
    funext fun a => by match a with | ⟨0, _⟩ => rfl | ⟨1, _⟩ => rfl
  have he : ((cfg0.win 6).blk t).view.emb y
      = ix2 (⟨5000 * t.val + (y 0).val, row_lt hN hr⟩ : Fin 50000) (⟨(y 1).val, hj⟩ : Fin 128) := by
    funext a; apply Fin.ext
    match a with
    | ⟨0, _⟩ => show win0_6.index t (0 : Fin 2) * 5000 + 1 * (y 0).val = 5000 * t.val + (y 0).val; rw [e60]; omega
    | ⟨1, _⟩ => show win0_6.index t (1 : Fin 2) * 128 + 1 * (y 1).val = (y 1).val; rw [e61]; omega
  show k0_pay1 (iblk0 V c 0 t) (iblk0 V c 1 t) (iblk0 V c 2 t) (iblk0 V c 3 t) (iblk0 V c 4 t) (iblk0 V c 5 t)
      ((cfg0.win 6).xinj (grid0.coords t) y) = Cert.Sage.denseRelu (V c main_arg0) (V c main_v18) (V c main_v8) (V c main_arg3) (V c main_arg4) (V c main_arg5) (((cfg0.win 6).blk t).view.emb y)
  rw [hy, he]
  refine block_value (V c main_arg0) (V c main_v18) (V c main_v8) (V c main_arg3) (V c main_arg4) (V c main_arg5)
    (iblk0 V c 0 t) (iblk0 V c 1 t) (iblk0 V c 2 t) (iblk0 V c 3 t) (iblk0 V c 4 t) (iblk0 V c 5 t) t.val hN
    (fun r k => ?_) (fun r k => ?_) (fun r => ?_) ?_ ?_ ?_ _ _
  · show V c main_arg0 (((cfg0.win 0).blk t).view.emb (ix2 r k)) = _
    refine congrArg (V c main_arg0) (funext fun a => Fin.ext ?_)
    match a with
    | ⟨0, _⟩ => show win0_0.index t (0 : Fin 2) * 5000 + 1 * r.val = 5000 * t.val + r.val; rw [e00]; omega
    | ⟨1, _⟩ => show win0_0.index t (1 : Fin 2) * 128 + 1 * k.val = k.val; rw [e01]; omega
  · show V c main_v18 (((cfg0.win 1).blk t).view.emb (ix2 r k)) = _
    refine congrArg (V c main_v18) (funext fun a => Fin.ext ?_)
    match a with
    | ⟨0, _⟩ => show win0_1.index t (0 : Fin 2) * 5000 + 1 * r.val = 5000 * t.val + r.val; rw [e10]; omega
    | ⟨1, _⟩ => show win0_1.index t (1 : Fin 2) * 128 + 1 * k.val = k.val; rw [e11]; omega
  · show V c main_v8 (((cfg0.win 2).blk t).view.emb (ix2 r (0 : Fin 1))) = _
    refine congrArg (V c main_v8) (funext fun a => Fin.ext ?_)
    match a with
    | ⟨0, _⟩ => show win0_2.index t (0 : Fin 2) * 5000 + 1 * r.val = 5000 * t.val + r.val; rw [e20]; omega
    | ⟨1, _⟩ => show win0_2.index t (1 : Fin 2) * 1 + 1 * 0 = 0; rw [e21]
  · funext x
    show V c main_arg3 (((cfg0.win 3).blk t).view.emb x) = V c main_arg3 x
    refine congrArg (V c main_arg3) (funext fun a => Fin.ext ?_)
    match a with
    | ⟨0, _⟩ => show win0_3.index t (0 : Fin 2) * 128 + 1 * (x 0).val = (x 0).val; rw [e30]; omega
    | ⟨1, _⟩ => show win0_3.index t (1 : Fin 2) * 128 + 1 * (x 1).val = (x 1).val; rw [e31]; omega
  · funext x
    show V c main_arg4 (((cfg0.win 4).blk t).view.emb x) = V c main_arg4 x
    refine congrArg (V c main_arg4) (funext fun a => Fin.ext ?_)
    match a with
    | ⟨0, _⟩ => show win0_4.index t (0 : Fin 2) * 128 + 1 * (x 0).val = (x 0).val; rw [e40]; omega
    | ⟨1, _⟩ => show win0_4.index t (1 : Fin 2) * 128 + 1 * (x 1).val = (x 1).val; rw [e41]; omega
  · funext x
    show V c main_arg5 (((cfg0.win 5).blk t).view.emb x) = V c main_arg5 x
    refine congrArg (V c main_arg5) (funext fun a => Fin.ext ?_)
    match a with
    | ⟨0, _⟩ => show win0_5.index t (0 : Fin 1) * 128 + 1 * (x 0).val = (x 0).val; rw [e50]; omega

/-- An index of the array is in point `t`'s block iff each coordinate is in the block's range on its axis. -/
theorem mem_block0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v19).slice (win0_6.rect t)).set ↔ _
  rw [View.set_slice_whole, Rect.mem_set_unit]
  exact Iff.rfl

/-- The ten row blocks cover the array: row `r` is in the block of point `r / 5000`, which is written back. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, -, e60, e61⟩ := block_indices0 ⟨(i 0).val / 5000, ht⟩
  refine ⟨⟨(i 0).val / 5000, ht⟩, flush0_6 _, ?_⟩
  rw [mem_block0]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [e61]
    omega

end Dense0

open Dense0

variable (V : (c : Dev nD) → (b : Ref sig .tc) → Buf (Elt Ideal) ((c : Thread nD τ).loc b))

/-- The output array of the first dense layer after its ten grid points: the clamped dense layer of the six
    arrays the region finds, as one matrix. -/
theorem final0 (c : Dev nD) :
    (dat0 (F := Ideal) V c).arrAt 6 cfg0.N
      = Cert.Sage.denseRelu (V c main_arg0) (V c main_v18) (V c main_v8) (V c main_arg3) (V c main_arg4) (V c main_arg5) :=
  (dat0 V c).arrAt_eq_of_cover 6 _ (fun t _ => flushed0_eq V c t) cover0

end Cert.KernelIdeal.Blocks

end
-- ==== Proof.DenseBlocks1.lean ====
/-
  The dense layer of region 1, block by block and then as one matrix.

  The region's grid has ten points; point `t` reads rows `5000 t … 5000 t + 4999` of the node table, of the
  message sums and of the inverse degrees, reads the two weight matrices and the bias whole, and writes the same
  rows of the output. What it writes at entry (r, j) of its block is

      max ((Σ_k h(r,k) · w_self(k,j) + Σ_k (a(r,k) · c(r)) · w_neigh(k,j)) + b(j)) 0

  of the blocks it read: the roundings to the narrower format are the identity on the extended reals, the shape
  casts to the same shape are the identity, the column of inverse degrees is broadcast along the features and
  the bias along the rows, and each matrix product with a zero accumulator is the sum over the 128 contracted
  features. A block's entry (r, j) is the array's entry (5000 t + r, j), so block `t` of the output is block `t`
  of the clamped dense layer of the six arrays; the ten blocks cover the 50000 rows (row `r` is in block
  `r / 5000`), so after the region the output array is that layer.
-/
import proofs.«168502_j77575699300503_2_alg».proof.Proof.Spec
import proofs.«168502_j77575699300503_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen
open Idealize.ShloMosaic.Pipeline (Dat)

namespace Cert.KernelIdeal.Blocks

namespace Dense1

/-- The index maps of the [5000,128] by [128,128] product: the left factor is read at the output's row and the
    contraction position, the right factor at the contraction position and the output's column. -/
theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] matrix product with a zero accumulator, read at entry (r, j): the sum over the
    128 contracted features of the products of row r of the left factor and column j of the right. -/
theorem matmul128_apply {φ₁ φ₂ : FTy} (a : FVec Ideal S5000x128 φ₁) (w : FVec Ideal S128x128 φ₂) (r : Fin 5000) (j : Fin 128) :
    matmul (F := Ideal) dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun ax => Fin.ext (by
    match ax with
    | ⟨0, _⟩ => exact lhs128_0 _ _
    | ⟨1, _⟩ => exact (lhs128_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun ax => Fin.ext (by
    match ax with
    | ⟨0, _⟩ => exact (rhs128_0 _ _).trans hk
    | ⟨1, _⟩ => exact rhs128_1 _ _)
  rw [el, er]

/-- An `[a, 1]` column broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dense layer's payload at entry (r, j) of a block: the two matrix products over the 128 features, the
    second of the message sums scaled row by row by the inverse degree, plus the bias, clamped below at zero. -/
theorem pay1_apply (x0 x1 : Vec Ideal S5000x128 .f32) (x2 : Vec Ideal S5000x1 .f32) (x3 x4 : Vec Ideal S128x128 .f32)
    (x5 : Vec Ideal S128 .f32) (r : Fin 5000) (j : Fin 128) :
    k1_pay1 (F := Ideal) x0 x1 x2 x3 x4 x5 (ix2 r j)
      = max (((∑ k : Fin 128, x0 (ix2 r k) * x3 (ix2 k j))
              + ∑ k : Fin 128, (x1 (ix2 r k) * x2 (ix2 r (0 : Fin 1))) * x4 (ix2 k j)) + x5 (ix1 j)) 0 := by
  unfold k1_pay1
  have hzero : (FloatOps.ofBits (F := Ideal) FTy.f32 0x00000000#32) = (0 : EReal) := Ideal.ofBits_zero_f32
  simp only [shapeCast_self]
  rw [maximumf_apply, broadcast_apply, hzero, addf_apply, addf_apply, matmul128_apply, matmul128_apply,
    broadcastTo_1b_ab_apply, shapeCast_a_1a_apply]
  simp only [truncf_apply, mulf_apply, broadcastTo_a1_ab_apply]

/-- Row `r` of block `t` of a 50000-row array cut into ten blocks of 5000 rows is row `5000 t + r`. -/
theorem row_lt {t r : ℕ} (ht : t < 10) (hr : r < 5000) : 5000 * t + r < 50000 := by omega

/-- The payload of block `t`, its row blocks and whole weight and bias arrays given as parts of the six
    arrays, is the clamped dense layer of those arrays at the block's place: entry (r, j) of the block is
    entry (5000 t + r, j) of the layer. -/
theorem block_value (A0 A1 : Cert.Sage.Mat 50000 128) (A2 : Cert.Sage.Mat 50000 1) (A3 A4 : Cert.Sage.Mat 128 128)
    (A5 : Cert.Sage.Col 128)
    (x0 x1 : Vec Ideal S5000x128 .f32) (x2 : Vec Ideal S5000x1 .f32) (x3 x4 : Vec Ideal S128x128 .f32)
    (x5 : Vec Ideal S128 .f32) (t : ℕ) (ht : t < 10)
    (h0 : ∀ (r : Fin 5000) (k : Fin 128), x0 (ix2 r k) = A0 (ix2 (⟨5000 * t + r.val, row_lt ht r.isLt⟩ : Fin 50000) k))
    (h1 : ∀ (r : Fin 5000) (k : Fin 128), x1 (ix2 r k) = A1 (ix2 (⟨5000 * t + r.val, row_lt ht r.isLt⟩ : Fin 50000) k))
    (h2 : ∀ (r : Fin 5000), x2 (ix2 r (0 : Fin 1)) = A2 (ix2 (⟨5000 * t + r.val, row_lt ht r.isLt⟩ : Fin 50000) (0 : Fin 1)))
    (h3 : x3 = A3) (h4 : x4 = A4) (h5 : x5 = A5) (r : Fin 5000) (j : Fin 128) :
    k1_pay1 (F := Ideal) x0 x1 x2 x3 x4 x5 (ix2 r j)
      = Cert.Sage.denseRelu A0 A1 A2 A3 A4 A5 (ix2 (⟨5000 * t + r.val, row_lt ht r.isLt⟩ : Fin 50000) j) := by
  subst h3 h4 h5
  rw [pay1_apply]
  simp only [h0, h1, h2]
  rfl

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices at grid point `t`, decided over the ten points: the three row-blocked inputs and the
    output are at row block `t`, column block 0; the weights and the bias are whole, at block 0. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What grid point `t` writes back is block `t` of the clamped dense layer of the six arrays as the region
    finds them. -/
theorem flushed1_eq (c : Dev nD) (t : Fin cfg1.N) :
    (dat1 (F := Ideal) V c).flushed 6 t = ((cfg1.win 6).blk t).view.read (Elt Ideal)
      (Cert.Sage.denseRelu (V c main_v19) (V c main_v29) (V c main_v8) (V c main_arg6) (V c main_arg7) (V c main_arg8)) := by
  show (cfg1.win 6).cut (grid1.coords t) ((dat1 V c).after 6 t) = _
  rw [after1_6]
  unfold out1_6
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  obtain ⟨e00, e01, e10, e11, e20, e21, e30, e31, e40, e41, e50, e60, e61⟩ := block_indices1 t
  have hN : t.val < 10 := Nat.lt_of_lt_of_eq t.isLt (show cfg1.N = 10 from N_1)
  funext y
  have hr : (y 0).val < 5000 := (y 0).isLt
  have hj : (y 1).val < 128 := (y 1).isLt
  have hy : (cfg1.win 6).xinj (grid1.coords t) y = ix2 (⟨(y 0).val, hr⟩ : Fin 5000) (⟨(y 1).val, hj⟩ : Fin 128) :=
    funext fun a => by match a with | ⟨0, _⟩ => rfl | ⟨1, _⟩ => rfl
  have he : ((cfg1.win 6).blk t).view.emb y
      = ix2 (⟨5000 * t.val + (y 0).val, row_lt hN hr⟩ : Fin 50000) (⟨(y 1).val, hj⟩ : Fin 128) := by
    funext a; apply Fin.ext
    match a with
    | ⟨0, _⟩ => show win1_6.index t (0 : Fin 2) * 5000 + 1 * (y 0).val = 5000 * t.val + (y 0).val; rw [e60]; omega
    | ⟨1, _⟩ => show win1_6.index t (1 : Fin 2) * 128 + 1 * (y 1).val = (y 1).val; rw [e61]; omega
  show k1_pay1 (iblk1 V c 0 t) (iblk1 V c 1 t) (iblk1 V c 2 t) (iblk1 V c 3 t) (iblk1 V c 4 t) (iblk1 V c 5 t)
      ((cfg1.win 6).xinj (grid1.coords t) y) = Cert.Sage.denseRelu (V c main_v19) (V c main_v29) (V c main_v8) (V c main_arg6) (V c main_arg7) (V c main_arg8) (((cfg1.win 6).blk t).view.emb y)
  rw [hy, he]
  refine block_value (V c main_v19) (V c main_v29) (V c main_v8) (V c main_arg6) (V c main_arg7) (V c main_arg8)
    (iblk1 V c 0 t) (iblk1 V c 1 t) (iblk1 V c 2 t) (iblk1 V c 3 t) (iblk1 V c 4 t) (iblk1 V c 5 t) t.val hN
    (fun r k => ?_) (fun r k => ?_) (fun r => ?_) ?_ ?_ ?_ _ _
  · show V c main_v19 (((cfg1.win 0).blk t).view.emb (ix2 r k)) = _
    refine congrArg (V c main_v19) (funext fun a => Fin.ext ?_)
    match a with
    | ⟨0, _⟩ => show win1_0.index t (0 : Fin 2) * 5000 + 1 * r.val = 5000 * t.val + r.val; rw [e00]; omega
    | ⟨1, _⟩ => show win1_0.index t (1 : Fin 2) * 128 + 1 * k.val = k.val; rw [e01]; omega
  · show V c main_v29 (((cfg1.win 1).blk t).view.emb (ix2 r k)) = _
    refine congrArg (V c main_v29) (funext fun a => Fin.ext ?_)
    match a with
    | ⟨0, _⟩ => show win1_1.index t (0 : Fin 2) * 5000 + 1 * r.val = 5000 * t.val + r.val; rw [e10]; omega
    | ⟨1, _⟩ => show win1_1.index t (1 : Fin 2) * 128 + 1 * k.val = k.val; rw [e11]; omega
  · show V c main_v8 (((cfg1.win 2).blk t).view.emb (ix2 r (0 : Fin 1))) = _
    refine congrArg (V c main_v8) (funext fun a => Fin.ext ?_)
    match a with
    | ⟨0, _⟩ => show win1_2.index t (0 : Fin 2) * 5000 + 1 * r.val = 5000 * t.val + r.val; rw [e20]; omega
    | ⟨1, _⟩ => show win1_2.index t (1 : Fin 2) * 1 + 1 * 0 = 0; rw [e21]
  · funext x
    show V c main_arg6 (((cfg1.win 3).blk t).view.emb x) = V c main_arg6 x
    refine congrArg (V c main_arg6) (funext fun a => Fin.ext ?_)
    match a with
    | ⟨0, _⟩ => show win1_3.index t (0 : Fin 2) * 128 + 1 * (x 0).val = (x 0).val; rw [e30]; omega
    | ⟨1, _⟩ => show win1_3.index t (1 : Fin 2) * 128 + 1 * (x 1).val = (x 1).val; rw [e31]; omega
  · funext x
    show V c main_arg7 (((cfg1.win 4).blk t).view.emb x) = V c main_arg7 x
    refine congrArg (V c main_arg7) (funext fun a => Fin.ext ?_)
    match a with
    | ⟨0, _⟩ => show win1_4.index t (0 : Fin 2) * 128 + 1 * (x 0).val = (x 0).val; rw [e40]; omega
    | ⟨1, _⟩ => show win1_4.index t (1 : Fin 2) * 128 + 1 * (x 1).val = (x 1).val; rw [e41]; omega
  · funext x
    show V c main_arg8 (((cfg1.win 5).blk t).view.emb x) = V c main_arg8 x
    refine congrArg (V c main_arg8) (funext fun a => Fin.ext ?_)
    match a with
    | ⟨0, _⟩ => show win1_5.index t (0 : Fin 1) * 128 + 1 * (x 0).val = (x 0).val; rw [e50]; omega

/-- An index of the array is in point `t`'s block iff each coordinate is in the block's range on its axis. -/
theorem mem_block1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v30).slice (win1_6.rect t)).set ↔ _
  rw [View.set_slice_whole, Rect.mem_set_unit]
  exact Iff.rfl

/-- The ten row blocks cover the array: row `r` is in the block of point `r / 5000`, which is written back. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, -, -, -, e60, e61⟩ := block_indices1 ⟨(i 0).val / 5000, ht⟩
  refine ⟨⟨(i 0).val / 5000, ht⟩, flush1_6 _, ?_⟩
  rw [mem_block1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, ht⟩ (1 : Fin 2) * 128 ≤ (i 1).val ∧ (i 1).val < win1_6.index ⟨(i 0).val / 5000, ht⟩ (1 : Fin 2) * 128 + 128
    rw [e61]
    omega

end Dense1

open Dense1

variable (V : (c : Dev nD) → (b : Ref sig .tc) → Buf (Elt Ideal) ((c : Thread nD τ).loc b))

/-- The output array of the second dense layer after its ten grid points: the clamped dense layer of the six
    arrays the region finds, as one matrix. -/
theorem final1 (c : Dev nD) :
    (dat1 (F := Ideal) V c).arrAt 6 cfg1.N
      = Cert.Sage.denseRelu (V c main_v19) (V c main_v29) (V c main_v8) (V c main_arg6) (V c main_arg7) (V c main_arg8) :=
  (dat1 V c).arrAt_eq_of_cover 6 _ (fun t _ => flushed1_eq V c t) cover1

end Cert.KernelIdeal.Blocks

end
-- ==== Proof.MatmulBlocks.lean ====
/-
  The narrow matrix product of the last layer, block by block.

  The third kernel multiplies the node table `h : [50000, 128]` by a weight matrix `w : [128, 40]`. Its grid has
  ten points; point `t` reads rows `5000·t … 5000·t + 4999` of `h` and the whole of `w`, and writes the same rows
  of the product. On the extended reals the narrowing of the operands to a shorter format is the identity and the
  accumulator starts at zero, so entry `(r, j)` of what a point computes is `∑ k, h_block (r, k) * w (k, j)`.

  Here: that entry formula for the kernel's stored value (`pay2_apply`); what point `t` writes back is block `t` of
  the whole product `mmMat h w` (`flushed2_eq`); the ten row blocks fill the output (`product_row_blocks_cover`); hence the
  output array ends holding `mmMat h w` (`final2`).
-/
import proofs.«168502_j77575699300503_2_alg».proof.Proof.Spec
import proofs.«168502_j77575699300503_2_alg».proof.Proof.Gen.KernelIdeal.Frame
import proofs.«168502_j77575699300503_2_alg».proof.Proof.Gen.KernelIdeal.Points
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Blocks

/-- The contraction of the narrow product: `[5000, 128] · [128, 40] → [5000, 40]`, summing the 128 features. -/
abbrev dotNarrow := dot_S5000x128_S128x40_S5000x40_1_0_0_1_n_n

/-- The left operand is read at the output's row. -/
theorem narrow_lhs_row (i : S5000x40.Idx) (q : dotNarrow.contr.Idx) : (dotNarrow.lhsIdx i q 0).val = (i 0).val := by
  unfold DotDims.lhsIdx
  rw [dif_neg (show ¬(0 : Fin S5000x128.rank) ∈ dotNarrow.lhsBatch by decide), dif_pos (show (0 : Fin S5000x128.rank) ∈ dotNarrow.lhsNonContracting by decide)]
  rfl
/-- The left operand is read at the summed feature. -/
theorem narrow_lhs_col (i : S5000x40.Idx) (q : dotNarrow.contr.Idx) : (dotNarrow.lhsIdx i q 1).val = (q ⟨0, by decide⟩).val :=
  dotNarrow.lhsIdx_val_of_single rfl i q
/-- The right operand is read at the summed feature. -/
theorem narrow_rhs_row (i : S5000x40.Idx) (q : dotNarrow.contr.Idx) : (dotNarrow.rhsIdx i q 0).val = (q ⟨0, by decide⟩).val :=
  dotNarrow.rhsIdx_val_of_single rfl i q
/-- The right operand is read at the output's column. -/
theorem narrow_rhs_col (i : S5000x40.Idx) (q : dotNarrow.contr.Idx) : (dotNarrow.rhsIdx i q 1).val = (i 1).val := by
  unfold DotDims.rhsIdx
  rw [dif_neg (show ¬(1 : Fin S128x40.rank) ∈ dotNarrow.rhsBatch by decide), dif_pos (show (1 : Fin S128x40.rank) ∈ dotNarrow.rhsNonContracting by decide)]
  rfl

/-- Entry `(r, j)` of the stored value: the sum over the 128 features of the products of row `r` of the left
    block and column `j` of the right one (narrowing is the identity on the extended reals, the accumulator is zero). -/
theorem pay2_apply (x0 : Vec Ideal S5000x128 .f32) (x1 : Vec Ideal S128x40 .f32) (r : Fin 5000) (j : Fin 40) :
    k2_pay1 (F := Ideal) x0 x1 (ix2 r j) = ∑ k : Fin 128, x0 (ix2 r k) * x1 (ix2 k j) := by
  unfold k2_pay1
  refine (Ideal.matmul_constant_zero_apply dotNarrow none _ _ (ix2 r j)).trans ?_
  rw [← Equiv.sum_comp (contrEquiv1 dotNarrow 128 rfl rfl).symm]
  refine Finset.sum_congr rfl fun k _ => ?_
  have hk := contrEquiv1_symm_val dotNarrow 128 rfl rfl k
  have el : dotNarrow.lhsIdx (ix2 r j) ((contrEquiv1 dotNarrow 128 rfl rfl).symm k) = ix2 r k :=
    funext fun a => Fin.ext (by
      match a with
      | ⟨0, _⟩ => exact narrow_lhs_row _ _
      | ⟨1, _⟩ => exact (narrow_lhs_col _ _).trans hk)
  have er : dotNarrow.rhsIdx (ix2 r j) ((contrEquiv1 dotNarrow 128 rfl rfl).symm k) = ix2 k j :=
    funext fun a => Fin.ext (by
      match a with
      | ⟨0, _⟩ => exact (narrow_rhs_row _ _).trans hk
      | ⟨1, _⟩ => exact narrow_rhs_col _ _)
  rw [el, er]
  show (shapeCast S5000x128 x0 shapeCasts_S5000x128_S5000x128) (ix2 r k) * x1 (ix2 k j) = _
  rw [shapeCast_self]

variable (V : (c : Dev nD) → (b : Ref sig .tc) → Buf (Elt Ideal) ((c : Thread nD τ).loc b))

/-- The two zero offsets of a whole-buffer access, as a constant function. -/
private theorem zero_offsets : (![0, 0] : Fin 2 → Nat) = fun _ => 0 := funext fun a => by fin_cases a <;> rfl

/-- Point `t` works on row block `t` of the node table and of the product, all columns, and on the whole weight matrix. -/
theorem product_row_block_of_point : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product: entry `(r, j)` of the block is the sum over the
    features of `h (5000·t + r, k) * w (k, j)`, the node table's block read at the output block's rows. -/theorem flushed2_eq (c : Dev nD) (t : Fin cfg2.N) :
    (dat2 (F := Ideal) V c).flushed 2 t
      = ((cfg2.win 2).blk t).view.read (Elt Ideal) (Cert.Sage.mmMat (V c main_v30) (V c main_arg10)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x40) zero_offsets]
  obtain ⟨e0, e1, e2, e3, e4, e5⟩ := product_row_block_of_point t
  funext y
  obtain ⟨r, j, rfl⟩ : ∃ (r : Fin 5000) (j : Fin 40), y = ix2 r j := ⟨y 0, y 1, eq_ix2 y⟩
  refine (pay2_apply _ _ r j).trans ?_
  rw [View.read_apply]
  show _ = Cert.Sage.mm (V c main_v30) (V c main_arg10) ((((cfg2.win 2).blk t).view.emb (ix2 r j)) 0) ((((cfg2.win 2).blk t).view.emb (ix2 r j)) 1)
  unfold Cert.Sage.mm
  refine Finset.sum_congr rfl fun k _ => ?_
  have hl : iblk2 V c 0 t (ix2 r k) = V c main_v30 (ix2 ((((cfg2.win 2).blk t).view.emb (ix2 r j)) 0) k) := by
    unfold iblk2
    rw [View.read_apply]
    show V c main_v30 (((cfg2.win 0).blk t).view.emb (ix2 r k)) = V c main_v30 _
    congr 1
    funext a
    apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have hr : iblk2 V c 1 t (ix2 k j) = V c main_arg10 (ix2 k ((((cfg2.win 2).blk t).view.emb (ix2 r j)) 1)) := by
    unfold iblk2
    rw [View.read_apply]
    show V c main_arg10 (((cfg2.win 1).blk t).view.emb (ix2 k j)) = V c main_arg10 _
    congr 1
    funext a
    apply Fin.ext
    match a with
    | ⟨0, _⟩ => show win2_1.index t (0 : Fin 2) * 128 + 1 * k.val = k.val; omega
    | ⟨1, _⟩ => show win2_1.index t (1 : Fin 2) * 40 + 1 * j.val = win2_2.index t (1 : Fin 2) * 40 + 1 * j.val; omega
  rw [hl, hr]

/-- An entry of the product is in point `t`'s block iff its row is one of the block's 5000 rows. -/
theorem mem_product_row_block (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v31).slice (win2_2.rect t)).set ↔ _
  rw [View.set_slice_whole, Rect.mem_set_unit]
  exact Iff.rfl

/-- Row `r` lies in row block `r / 5000`, which its point writes back: the ten blocks fill the product. -/
theorem product_row_blocks_cover (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  refine ⟨⟨(i 0).val / 5000, by rw [hN]; omega⟩, flush2_2 _, ?_⟩
  rw [mem_product_row_block]
  obtain ⟨e0, e1, e2, e3, e4, e5⟩ := product_row_block_of_point ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]
    show (i 0).val / 5000 * 5000 ≤ (i 0).val ∧ (i 0).val < (i 0).val / 5000 * 5000 + 5000
    omega
  | ⟨1, _⟩ =>
    show win2_2.index _ (1 : Fin 2) * 40 ≤ (i 1).val ∧ (i 1).val < win2_2.index _ (1 : Fin 2) * 40 + 40
    rw [e5]
    omega

/-- After the ten points the output array holds the product of the node table and the weight matrix. -/
theorem final2 (c : Dev nD) :
    (dat2 (F := Ideal) V c).arrAt 2 cfg2.N = Cert.Sage.mmMat (V c main_v30) (V c main_arg10) :=
  (dat2 (F := Ideal) V c).arrAt_eq_of_cover 2 (Cert.Sage.mmMat (V c main_v30) (V c main_arg10))
    (fun t _ => flushed2_eq V c t) product_row_blocks_cover

end Cert.KernelIdeal.Blocks

end
-- ==== Proof.CombineBlocks.lean ====
/-
  The last layer in its transform-then-aggregate form, block by block.

  The fourth kernel forms `h · w_self + ms ⊙ c + b`: the node table `h : [50000, 128]` times the weight matrix
  `w_self : [128, 40]`, plus the message sums `ms : [50000, 40]` with row `r` scaled by the inverse degree `c r`,
  plus the bias `b : [40]` on every row. Its grid has ten points; point `t` reads rows `5000·t … 5000·t + 4999` of
  `h`, `ms` and `c` and the whole of `w_self` and `b`, and writes the same rows of the result. On the extended
  reals the narrowing of the product's operands is the identity and its accumulator starts at zero.

  Here: the entry formula for the kernel's stored value (`pay3_apply`); each input block as rows of its array
  (`table_block_apply` … `bias_block_apply`); what point `t` writes back is block `t` of `combineMat h ms c w_self b`
  (`flushed3_eq`); the ten row blocks fill the output (`combine_row_blocks_cover`); hence the output array ends
  holding `combineMat h ms c w_self b` (`final3`).
-/
import proofs.«168502_j77575699300503_2_alg».proof.Proof.Spec
import proofs.«168502_j77575699300503_2_alg».proof.Proof.Gen.KernelIdeal.Frame
import proofs.«168502_j77575699300503_2_alg».proof.Proof.Gen.KernelIdeal.Points
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.KernelIdeal.Blocks

/-- The contraction of the narrow product: `[5000, 128] · [128, 40] → [5000, 40]`, summing the 128 features. -/
private abbrev dotNarrow := dot_S5000x128_S128x40_S5000x40_1_0_0_1_n_n

/-- The left operand is read at the output's row. -/
private theorem narrow_lhs_row (i : S5000x40.Idx) (q : dotNarrow.contr.Idx) : (dotNarrow.lhsIdx i q 0).val = (i 0).val := by
  unfold DotDims.lhsIdx
  rw [dif_neg (show ¬(0 : Fin S5000x128.rank) ∈ dotNarrow.lhsBatch by decide), dif_pos (show (0 : Fin S5000x128.rank) ∈ dotNarrow.lhsNonContracting by decide)]
  rfl
/-- The left operand is read at the summed feature. -/
private theorem narrow_lhs_col (i : S5000x40.Idx) (q : dotNarrow.contr.Idx) : (dotNarrow.lhsIdx i q 1).val = (q ⟨0, by decide⟩).val :=
  dotNarrow.lhsIdx_val_of_single rfl i q
/-- The right operand is read at the summed feature. -/
private theorem narrow_rhs_row (i : S5000x40.Idx) (q : dotNarrow.contr.Idx) : (dotNarrow.rhsIdx i q 0).val = (q ⟨0, by decide⟩).val :=
  dotNarrow.rhsIdx_val_of_single rfl i q
/-- The right operand is read at the output's column. -/
private theorem narrow_rhs_col (i : S5000x40.Idx) (q : dotNarrow.contr.Idx) : (dotNarrow.rhsIdx i q 1).val = (i 1).val := by
  unfold DotDims.rhsIdx
  rw [dif_neg (show ¬(1 : Fin S128x40.rank) ∈ dotNarrow.rhsBatch by decide), dif_pos (show (1 : Fin S128x40.rank) ∈ dotNarrow.rhsNonContracting by decide)]
  rfl

/-- Entry `(r, j)` of the product accumulated from zero: the sum over the 128 features. -/
private theorem narrow_product_apply {φ₁ φ₂ : FTy} (a : FVec Ideal S5000x128 φ₁) (b : FVec Ideal S128x40 φ₂) (r : Fin 5000) (j : Fin 40) :
    FloatOps.matmul dotNarrow none a b (constant (F := Ideal) S5000x40 .f32 0x00000000#32) (ix2 r j) = ∑ k : Fin 128, a (ix2 r k) * b (ix2 k j) := by
  refine (Ideal.matmul_constant_zero_apply dotNarrow none a b (ix2 r j)).trans ?_
  rw [← Equiv.sum_comp (contrEquiv1 dotNarrow 128 rfl rfl).symm]
  refine Finset.sum_congr rfl fun k _ => ?_
  have hk := contrEquiv1_symm_val dotNarrow 128 rfl rfl k
  have el : dotNarrow.lhsIdx (ix2 r j) ((contrEquiv1 dotNarrow 128 rfl rfl).symm k) = ix2 r k :=
    funext fun a => Fin.ext (by
      match a with
      | ⟨0, _⟩ => exact narrow_lhs_row _ _
      | ⟨1, _⟩ => exact (narrow_lhs_col _ _).trans hk)
  have er : dotNarrow.rhsIdx (ix2 r j) ((contrEquiv1 dotNarrow 128 rfl rfl).symm k) = ix2 k j :=
    funext fun a => Fin.ext (by
      match a with
      | ⟨0, _⟩ => exact (narrow_rhs_row _ _).trans hk
      | ⟨1, _⟩ => exact narrow_rhs_col _ _)
  rw [el, er]

/-- A column `[a, 1]` broadcast along the columns to `[a, b]` reads, at `(p, c)`, the column's entry of row `p`. -/
private theorem column_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(r, j)` of the stored value: the product's entry, plus the message sum scaled by the row's inverse
    degree, plus the bias of column `j`. -/
theorem pay3_apply (x0 : Vec Ideal S5000x128 .f32) (x3 : Vec Ideal S128x40 .f32) (x1 : Vec Ideal S5000x40 .f32)
    (x2 : Vec Ideal S5000x1 .f32) (x4 : Vec Ideal S40 .f32) (r : Fin 5000) (j : Fin 40) :
    k3_pay1 (F := Ideal) x0 x3 x1 x2 x4 (ix2 r j)
      = ((∑ k : Fin 128, x0 (ix2 r k) * x3 (ix2 k j)) + x1 (ix2 r j) * x2 (ix2 r (0 : Fin 1))) + x4 (ix1 j) := by
  unfold k3_pay1
  show (FloatOps.matmul dotNarrow none (truncf .bf16 (shapeCast S5000x128 x0 shapeCasts_S5000x128_S5000x128) bitsLt_bf16_f32) (truncf .bf16 x3 bitsLt_bf16_f32) (constant (F := Ideal) S5000x40 .f32 0x00000000#32) (ix2 r j)
      + shapeCast S5000x40 x1 shapeCasts_S5000x40_S5000x40 (ix2 r j)
        * broadcastTo S5000x40 (shapeCast S5000x1 x2 shapeCasts_S5000x1_S5000x1) broadcasts_S5000x1_S5000x40 (ix2 r j))
      + broadcastTo S5000x40 (shapeCast S1x40 (shapeCast S1x40 x4 shapeCasts_S40_S1x40) shapeCasts_S1x40_S1x40) broadcasts_S1x40_S5000x40 (ix2 r j) = _
  rw [narrow_product_apply, shapeCast_self, shapeCast_self, shapeCast_self, shapeCast_self, column_broadcast_apply, broadcastTo_1b_ab_apply, shapeCast_a_1a_apply]
  rfl

variable (V : (c : Dev nD) → (b : Ref sig .tc) → Buf (Elt Ideal) ((c : Thread nD τ).loc b))

/-- The two zero offsets of a whole-buffer access to a matrix, as a constant function. -/
private theorem zero_offsets : (![0, 0] : Fin 2 → Nat) = fun _ => 0 := funext fun a => by fin_cases a <;> rfl
/-- The zero offset of a whole-buffer access to a vector, as a constant function. -/
private theorem zero_offset : (![0] : Fin 1 → Nat) = fun _ => 0 := funext fun a => by fin_cases a; rfl

/-- Point `t` works on row block `t` of the node table, of the message sums, of the inverse degrees and of the
    result, all columns, and on the whole weight matrix and bias. -/
theorem combine_row_block_of_point : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Row `r` of point `t`'s block of the node table is row `5000·t + r` of the table. -/
theorem table_block_apply (c : Dev nD) (t : Fin cfg3.N) (r : Fin 5000) (k : Fin 128) (i : S50000x128.Idx)
    (h0 : (i 0).val = 5000 * t.val + r.val) (h1 : (i 1).val = k.val) :
    iblk3 V c 0 t (ix2 r k) = V c main_v30 i := by
  obtain ⟨e0, e1, -⟩ := combine_row_block_of_point t
  unfold iblk3
  rw [View.read_apply]
  show V c main_v30 (((cfg3.win 0).blk t).view.emb (ix2 r k)) = V c main_v30 i
  congr 1
  funext a
  apply Fin.ext
  match a with
  | ⟨0, _⟩ => show win3_0.index t (0 : Fin 2) * 5000 + 1 * r.val = (i 0).val; omega
  | ⟨1, _⟩ => show win3_0.index t (1 : Fin 2) * 128 + 1 * k.val = (i 1).val; omega

/-- Row `r` of point `t`'s block of the message sums is row `5000·t + r` of the sums. -/
theorem sums_block_apply (c : Dev nD) (t : Fin cfg3.N) (r : Fin 5000) (j : Fin 40) (i : S50000x40.Idx)
    (h0 : (i 0).val = 5000 * t.val + r.val) (h1 : (i 1).val = j.val) :
    iblk3 V c 1 t (ix2 r j) = V c main_v41 i := by
  obtain ⟨-, -, e0, e1, -⟩ := combine_row_block_of_point t
  unfold iblk3
  rw [View.read_apply]
  show V c main_v41 (((cfg3.win 1).blk t).view.emb (ix2 r j)) = V c main_v41 i
  congr 1
  funext a
  apply Fin.ext
  match a with
  | ⟨0, _⟩ => show win3_1.index t (0 : Fin 2) * 5000 + 1 * r.val = (i 0).val; omega
  | ⟨1, _⟩ => show win3_1.index t (1 : Fin 2) * 40 + 1 * j.val = (i 1).val; omega

/-- Row `r` of point `t`'s block of the inverse degrees is row `5000·t + r` of that column. -/
theorem degree_block_apply (c : Dev nD) (t : Fin cfg3.N) (r : Fin 5000) (i : S50000x1.Idx)
    (h0 : (i 0).val = 5000 * t.val + r.val) (h1 : (i 1).val = 0) :
    iblk3 V c 2 t (ix2 r (0 : Fin 1)) = V c main_v8 i := by
  obtain ⟨-, -, -, -, e0, e1, -⟩ := combine_row_block_of_point t
  unfold iblk3
  rw [View.read_apply]
  show V c main_v8 (((cfg3.win 2).blk t).view.emb (ix2 r (0 : Fin 1))) = V c main_v8 i
  congr 1
  funext a
  apply Fin.ext
  match a with
  | ⟨0, _⟩ => show win3_2.index t (0 : Fin 2) * 5000 + 1 * r.val = (i 0).val; omega
  | ⟨1, _⟩ => show win3_2.index t (1 : Fin 2) * 1 + 1 * (0 : Fin 1).val = (i 1).val; rw [h1, e1]; rfl

/-- Every point's block of the weight matrix is the whole matrix. -/
theorem weight_block_apply (c : Dev nD) (t : Fin cfg3.N) (k : Fin 128) (j : Fin 40) (i : S128x40.Idx)
    (h0 : (i 0).val = k.val) (h1 : (i 1).val = j.val) :
    iblk3 V c 3 t (ix2 k j) = V c main_arg9 i := by
  obtain ⟨-, -, -, -, -, -, e0, e1, -⟩ := combine_row_block_of_point t
  unfold iblk3
  rw [View.read_apply]
  show V c main_arg9 (((cfg3.win 3).blk t).view.emb (ix2 k j)) = V c main_arg9 i
  congr 1
  funext a
  apply Fin.ext
  match a with
  | ⟨0, _⟩ => show win3_3.index t (0 : Fin 2) * 128 + 1 * k.val = (i 0).val; omega
  | ⟨1, _⟩ => show win3_3.index t (1 : Fin 2) * 40 + 1 * j.val = (i 1).val; omega

/-- Every point's block of the bias is the whole bias. -/
theorem bias_block_apply (c : Dev nD) (t : Fin cfg3.N) (j : Fin 40) (i : S40.Idx) (h0 : (i 0).val = j.val) :
    iblk3 V c 4 t (ix1 j) = V c main_arg11 i := by
  obtain ⟨-, -, -, -, -, -, -, -, e0, -⟩ := combine_row_block_of_point t
  unfold iblk3
  rw [View.read_apply]
  show V c main_arg11 (((cfg3.win 4).blk t).view.emb (ix1 j)) = V c main_arg11 i
  congr 1
  funext a
  apply Fin.ext
  match a with
  | ⟨0, _⟩ => show win3_4.index t (0 : Fin 1) * 40 + 1 * j.val = (i 0).val; omega

/-- What point `t` writes back is block `t` of the whole combined layer: each input block read at the rows and
    columns of the output block's entry. -/
theorem flushed3_eq (c : Dev nD) (t : Fin cfg3.N) :
    (dat3 (F := Ideal) V c).flushed 5 t
      = ((cfg3.win 5).blk t).view.read (Elt Ideal)
          (Cert.Sage.combineMat (V c main_v30) (V c main_v41) (V c main_v8) (V c main_arg9) (V c main_arg11)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S128x40) zero_offsets,
    View.ld_unit_zero (S := S5000x40) zero_offsets, View.ld_unit_zero (S := S5000x1) zero_offsets,
    View.ld_unit_zero (S := S40) zero_offset]
  funext y
  obtain ⟨r, j, rfl⟩ : ∃ (r : Fin 5000) (j : Fin 40), y = ix2 r j := ⟨y 0, y 1, eq_ix2 y⟩
  refine (pay3_apply _ _ _ _ _ r j).trans ?_
  rw [View.read_apply]
  show _ = Cert.Sage.combine (V c main_v30) (V c main_v41) (V c main_v8) (V c main_arg9) (V c main_arg11)
      ((((cfg3.win 5).blk t).view.emb (ix2 r j)) 0) ((((cfg3.win 5).blk t).view.emb (ix2 r j)) 1)
  unfold Cert.Sage.combine Cert.Sage.mm
  obtain ⟨-, -, -, -, -, -, -, -, -, e0, e1⟩ := combine_row_block_of_point t
  have hE0 : ((((cfg3.win 5).blk t).view.emb (ix2 r j)) 0).val = 5000 * t.val + r.val := by
    show win3_5.index t (0 : Fin 2) * 5000 + 1 * r.val = _; omega
  have hE1 : ((((cfg3.win 5).blk t).view.emb (ix2 r j)) 1).val = j.val := by
    show win3_5.index t (1 : Fin 2) * 40 + 1 * j.val = _; omega
  rw [sums_block_apply V c t r j (ix2 ((((cfg3.win 5).blk t).view.emb (ix2 r j)) 0) ((((cfg3.win 5).blk t).view.emb (ix2 r j)) 1)) hE0 hE1,
    degree_block_apply V c t r (ix2 ((((cfg3.win 5).blk t).view.emb (ix2 r j)) 0) (0 : Fin 1)) hE0 rfl,
    bias_block_apply V c t j (ix1 ((((cfg3.win 5).blk t).view.emb (ix2 r j)) 1)) hE1,
    Finset.sum_congr rfl fun k _ => by
      rw [table_block_apply V c t r k (ix2 ((((cfg3.win 5).blk t).view.emb (ix2 r j)) 0) k) hE0 rfl,
        weight_block_apply V c t k j (ix2 k ((((cfg3.win 5).blk t).view.emb (ix2 r j)) 1)) rfl hE1]]

/-- An entry of the result is in point `t`'s block iff its row is one of the block's 5000 rows. -/
theorem mem_combine_row_block (t : Fin cfg3.N) (i : S50000x40.Idx) :
    i ∈ ((cfg3.win 5).blk t).view.set ↔ ∀ a : Fin 2, win3_5.index t a * S5000x40.size a ≤ (i a).val ∧ (i a).val < win3_5.index t a * S5000x40.size a + S5000x40.size a := by
  show i ∈ ((View.whole main_v42).slice (win3_5.rect t)).set ↔ _
  rw [View.set_slice_whole, Rect.mem_set_unit]
  exact Iff.rfl

/-- Row `r` lies in row block `r / 5000`, which its point writes back: the ten blocks fill the result. -/
theorem combine_row_blocks_cover (i : S50000x40.Idx) :
    ∃ t : Fin cfg3.N, (cfg3.win 5).flush t = true ∧ i ∈ ((cfg3.win 5).blk t).view.set := by
  have hi0 : (i 0).val < 50000 := (i 0).isLt
  have hi1 : (i 1).val < 40 := (i 1).isLt
  have hN : cfg3.N = 10 := N_3
  refine ⟨⟨(i 0).val / 5000, by rw [hN]; omega⟩, flush3_5 _, ?_⟩
  rw [mem_combine_row_block]
  obtain ⟨-, -, -, -, -, -, -, -, -, e0, e1⟩ := combine_row_block_of_point ⟨(i 0).val / 5000, by rw [hN]; omega⟩
  intro a
  match a with
  | ⟨0, _⟩ =>
    show win3_5.index _ (0 : Fin 2) * 5000 ≤ (i 0).val ∧ (i 0).val < win3_5.index _ (0 : Fin 2) * 5000 + 5000
    rw [e0]
    show (i 0).val / 5000 * 5000 ≤ (i 0).val ∧ (i 0).val < (i 0).val / 5000 * 5000 + 5000
    omega
  | ⟨1, _⟩ =>
    show win3_5.index _ (1 : Fin 2) * 40 ≤ (i 1).val ∧ (i 1).val < win3_5.index _ (1 : Fin 2) * 40 + 40
    rw [e1]
    omega

/-- After the ten points the output array holds the last layer in its transform-then-aggregate form. -/
theorem final3 (c : Dev nD) :
    (dat3 (F := Ideal) V c).arrAt 5 cfg3.N
      = Cert.Sage.combineMat (V c main_v30) (V c main_v41) (V c main_v8) (V c main_arg9) (V c main_arg11) :=
  (dat3 (F := Ideal) V c).arrAt_eq_of_cover 5
    (Cert.Sage.combineMat (V c main_v30) (V c main_v41) (V c main_v8) (V c main_arg9) (V c main_arg11))
    (fun t _ => flushed3_eq V c t) combine_row_blocks_cover

end Cert.KernelIdeal.Blocks

end
-- ==== Proof.KernelValue.lean ====
/-
  The value the kernel program returns, boundary by boundary.

  The program alternates stretches of host operations with four grid pipelines. At each boundary the buffers the
  next segment reads are named here as functions of the twelve argument arrays:
    * before the first pipeline the host has formed the inverse clamped degrees and the message sums of the features;
    * the first pipeline leaves the hidden table of layer 0 (`hid1`); the host then forms its message sums;
    * the second pipeline leaves the hidden table of layer 1 (`hid2`); the third its product with the last
      neighbour weights; the host then sums those transformed messages per destination;
    * the fourth pipeline leaves the result: the last layer in its transform-then-aggregate form (`outK`).
  A host stretch leaves alone every buffer it does not write, and a pipeline every buffer but its output array, so
  the arguments and the inverse degrees are read at any later boundary as they were first formed.
-/
import proofs.«168502_j77575699300503_2_alg».proof.Proof.Gen.KernelIdeal.Frame
import proofs.«168502_j77575699300503_2_alg».proof.Proof.Model
import proofs.«168502_j77575699300503_2_alg».proof.Proof.DenseBlocks0
import proofs.«168502_j77575699300503_2_alg».proof.Proof.DenseBlocks1
import proofs.«168502_j77575699300503_2_alg».proof.Proof.MatmulBlocks
import proofs.«168502_j77575699300503_2_alg».proof.Proof.CombineBlocks
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Sage

variable (m : (ℓ : Loc nD τ sig) → Buf (Elt Ideal) ℓ) (ρ : Dev nD → PrngReg) (c : Dev nD)

/-! ## What each segment leaves alone -/

/-- Every buffer but the region's output array holds after the region what it held before it: an input window's array is
    read, never written, and a buffer that is no array of the region is not touched. -/
theorem W2_keep (b : Ref sig .tc) (hb : b ≠ main_v19) :
    W2 (F := Ideal) m ρ c (Proc.devRef .tc b) = W1 m ρ c (Proc.devRef .tc b) := by
  by_cases h : ∃ w, Pipeline.arrRef spec0 w = b
  · obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact (W2_arr m ρ c 4).trans (((dat0 (V1 m ρ) c).arrAt_in 4 rfl _).trans (A_eq0 (V1 m ρ) c 4))
    · exact (W2_arr m ρ c 5).trans (((dat0 (V1 m ρ) c).arrAt_in 5 rfl _).trans (A_eq0 (V1 m ρ) c 5))
    · exact absurd rfl hb
  · exact W2_of_ne m ρ c b (fun w e => h ⟨w, e⟩)

/-- Every buffer but the region's output array holds after the region what it held before it: an input window's array is
    read, never written, and a buffer that is no array of the region is not touched. -/
theorem W4_keep (b : Ref sig .tc) (hb : b ≠ main_v30) :
    W4 (F := Ideal) m ρ c (Proc.devRef .tc b) = W3 m ρ c (Proc.devRef .tc b) := by
  by_cases h : ∃ w, Pipeline.arrRef spec1 w = b
  · obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact (W4_arr m ρ c 5).trans (((dat1 (V3 m ρ) c).arrAt_in 5 rfl _).trans (A_eq1 (V3 m ρ) c 5))
    · exact absurd rfl hb
  · exact W4_of_ne m ρ c b (fun w e => h ⟨w, e⟩)

/-- Every buffer but the region's output array holds after the region what it held before it: an input window's array is
    read, never written, and a buffer that is no array of the region is not touched. -/
theorem W5_keep (b : Ref sig .tc) (hb : b ≠ main_v31) :
    W5 (F := Ideal) m ρ c (Proc.devRef .tc b) = W4 m ρ c (Proc.devRef .tc b) := by
  by_cases h : ∃ w, Pipeline.arrRef spec2 w = b
  · obtain ⟨w, rfl⟩ := h
    fin_cases w
    · exact (W5_arr m ρ c 0).trans (((dat2 (V4 m ρ) c).arrAt_in 0 rfl _).trans (A_eq2 (V4 m ρ) c 0))
    · exact (W5_arr m ρ c 1).trans (((dat2 (V4 m ρ) c).arrAt_in 1 rfl _).trans (A_eq2 (V4 m ρ) c 1))
    · exact absurd rfl hb
  · exact W5_of_ne m ρ c b (fun w e => h ⟨w, e⟩)

/-! ## Before the first pipeline -/

set_option maxHeartbeats 4000000 in
theorem w1_arg0 : W1 (F := Ideal) m ρ c (Proc.devRef .tc main_arg0) = (m ((c : Thread nD τ).loc main_arg0)) := by
  show StableHlo.after hostOps0 (W0 m ρ c) (Proc.devRef .tc main_arg0) = _
  after_results_simp

set_option maxHeartbeats 4000000 in
theorem w1_arg1 : W1 (F := Ideal) m ρ c (Proc.devRef .tc main_arg1) = (m ((c : Thread nD τ).loc main_arg1)) := by
  show StableHlo.after hostOps0 (W0 m ρ c) (Proc.devRef .tc main_arg1) = _
  after_results_simp

set_option maxHeartbeats 4000000 in
theorem w1_arg2 : W1 (F := Ideal) m ρ c (Proc.devRef .tc main_arg2) = (m ((c : Thread nD τ).loc main_arg2)) := by
  show StableHlo.after hostOps0 (W0 m ρ c) (Proc.devRef .tc main_arg2) = _
  after_results_simp

set_option maxHeartbeats 4000000 in
theorem w1_arg3 : W1 (F := Ideal) m ρ c (Proc.devRef .tc main_arg3) = (m ((c : Thread nD τ).loc main_arg3)) := by
  show StableHlo.after hostOps0 (W0 m ρ c) (Proc.devRef .tc main_arg3) = _
  after_results_simp

set_option maxHeartbeats 4000000 in
theorem w1_arg4 : W1 (F := Ideal) m ρ c (Proc.devRef .tc main_arg4) = (m ((c : Thread nD τ).loc main_arg4)) := by
  show StableHlo.after hostOps0 (W0 m ρ c) (Proc.devRef .tc main_arg4) = _
  after_results_simp

set_option maxHeartbeats 4000000 in
theorem w1_arg5 : W1 (F := Ideal) m ρ c (Proc.devRef .tc main_arg5) = (m ((c : Thread nD τ).loc main_arg5)) := by
  show StableHlo.after hostOps0 (W0 m ρ c) (Proc.devRef .tc main_arg5) = _
  after_results_simp

set_option maxHeartbeats 4000000 in
theorem w1_arg6 : W1 (F := Ideal) m ρ c (Proc.devRef .tc main_arg6) = (m ((c : Thread nD τ).loc main_arg6)) := by
  show StableHlo.after hostOps0 (W0 m ρ c) (Proc.devRef .tc main_arg6) = _
  after_results_simp

set_option maxHeartbeats 4000000 in
theorem w1_arg7 : W1 (F := Ideal) m ρ c (Proc.devRef .tc main_arg7) = (m ((c : Thread nD τ).loc main_arg7)) := by
  show StableHlo.after hostOps0 (W0 m ρ c) (Proc.devRef .tc main_arg7) = _
  after_results_simp

set_option maxHeartbeats 4000000 in
theorem w1_arg8 : W1 (F := Ideal) m ρ c (Proc.devRef .tc main_arg8) = (m ((c : Thread nD τ).loc main_arg8)) := by
  show StableHlo.after hostOps0 (W0 m ρ c) (Proc.devRef .tc main_arg8) = _
  after_results_simp

set_option maxHeartbeats 4000000 in
theorem w1_arg9 : W1 (F := Ideal) m ρ c (Proc.devRef .tc main_arg9) = (m ((c : Thread nD τ).loc main_arg9)) := by
  show StableHlo.after hostOps0 (W0 m ρ c) (Proc.devRef .tc main_arg9) = _
  after_results_simp

set_option maxHeartbeats 4000000 in
theorem w1_arg10 : W1 (F := Ideal) m ρ c (Proc.devRef .tc main_arg10) = (m ((c : Thread nD τ).loc main_arg10)) := by
  show StableHlo.after hostOps0 (W0 m ρ c) (Proc.devRef .tc main_arg10) = _
  after_results_simp

set_option maxHeartbeats 4000000 in
theorem w1_arg11 : W1 (F := Ideal) m ρ c (Proc.devRef .tc main_arg11) = (m ((c : Thread nD τ).loc main_arg11)) := by
  show StableHlo.after hostOps0 (W0 m ρ c) (Proc.devRef .tc main_arg11) = _
  after_results_simp

set_option maxHeartbeats 4000000 in
theorem w1_v18 : W1 (F := Ideal) m ρ c (Proc.devRef .tc main_v18) = agg128 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

set_option maxHeartbeats 4000000 in
theorem w1_v8 : W1 (F := Ideal) m ρ c (Proc.devRef .tc main_v8) = invDeg (m ((c : Thread nD τ).loc main_arg2)) := by
  show StableHlo.after hostOps0 (W0 m ρ c) (Proc.devRef .tc main_v8) = _
  after_results_simp
  rfl

/-! ## The first pipeline: layer 0 -/

theorem w2_v19 : W2 (F := Ideal) m ρ c (Proc.devRef .tc main_v19) = (hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 6).trans ((Blocks.final0 (V1 m ρ) c).trans ?_)
  show denseRelu (W1 m ρ c (Proc.devRef .tc main_arg0)) (W1 m ρ c (Proc.devRef .tc main_v18)) (W1 m ρ c (Proc.devRef .tc main_v8))
    (W1 m ρ c (Proc.devRef .tc main_arg3)) (W1 m ρ c (Proc.devRef .tc main_arg4)) (W1 m ρ c (Proc.devRef .tc main_arg5)) = _
  rw [w1_arg0, w1_v18, w1_v8, w1_arg3, w1_arg4, w1_arg5]
  rfl

theorem w2_arg1 : W2 (F := Ideal) m ρ c (Proc.devRef .tc main_arg1) = (m ((c : Thread nD τ).loc main_arg1)) :=
  (W2_keep m ρ c main_arg1 (by decide)).trans (w1_arg1 m ρ c)
theorem w2_arg2 : W2 (F := Ideal) m ρ c (Proc.devRef .tc main_arg2) = (m ((c : Thread nD τ).loc main_arg2)) :=
  (W2_keep m ρ c main_arg2 (by decide)).trans (w1_arg2 m ρ c)
theorem w2_arg6 : W2 (F := Ideal) m ρ c (Proc.devRef .tc main_arg6) = (m ((c : Thread nD τ).loc main_arg6)) :=
  (W2_keep m ρ c main_arg6 (by decide)).trans (w1_arg6 m ρ c)
theorem w2_arg7 : W2 (F := Ideal) m ρ c (Proc.devRef .tc main_arg7) = (m ((c : Thread nD τ).loc main_arg7)) :=
  (W2_keep m ρ c main_arg7 (by decide)).trans (w1_arg7 m ρ c)
theorem w2_arg8 : W2 (F := Ideal) m ρ c (Proc.devRef .tc main_arg8) = (m ((c : Thread nD τ).loc main_arg8)) :=
  (W2_keep m ρ c main_arg8 (by decide)).trans (w1_arg8 m ρ c)
theorem w2_arg9 : W2 (F := Ideal) m ρ c (Proc.devRef .tc main_arg9) = (m ((c : Thread nD τ).loc main_arg9)) :=
  (W2_keep m ρ c main_arg9 (by decide)).trans (w1_arg9 m ρ c)
theorem w2_arg10 : W2 (F := Ideal) m ρ c (Proc.devRef .tc main_arg10) = (m ((c : Thread nD τ).loc main_arg10)) :=
  (W2_keep m ρ c main_arg10 (by decide)).trans (w1_arg10 m ρ c)
theorem w2_arg11 : W2 (F := Ideal) m ρ c (Proc.devRef .tc main_arg11) = (m ((c : Thread nD τ).loc main_arg11)) :=
  (W2_keep m ρ c main_arg11 (by decide)).trans (w1_arg11 m ρ c)
theorem w2_v8 : W2 (F := Ideal) m ρ c (Proc.devRef .tc main_v8) = invDeg (m ((c : Thread nD τ).loc main_arg2)) :=
  (W2_keep m ρ c main_v8 (by decide)).trans (w1_v8 m ρ c)

/-! ## Between the first and the second pipeline -/

set_option maxHeartbeats 4000000 in
theorem w3_v19 : W3 (F := Ideal) m ρ c (Proc.devRef .tc main_v19) = (hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v19) = _
  after_results_simp
  exact w2_v19 m ρ c

set_option maxHeartbeats 4000000 in
theorem w3_v29 : W3 (F := Ideal) m ρ c (Proc.devRef .tc main_v29) = agg128 (hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v29) = _
  after_results_simp
  rw [w2_v19, w2_arg1, w2_arg2]
  rfl

set_option maxHeartbeats 4000000 in
theorem w3_v8 : W3 (F := Ideal) m ρ c (Proc.devRef .tc main_v8) = invDeg (m ((c : Thread nD τ).loc main_arg2)) := by
  show StableHlo.after hostOps1 (W2 m ρ c) (Proc.devRef .tc main_v8) = _
  after_results_simp
  exact w2_v8 m ρ c

set_option maxHeartbeats 4000000 in
theorem w3_arg1 : W3 (F := Ideal) m ρ c (Proc.devRef .tc main_arg1) = (m ((c : Thread nD τ).loc main_arg1)) := by
  show StableHlo.after hostOps1 (W2 m ρ c) (Proc.devRef .tc main_arg1) = _
  after_results_simp
  exact w2_arg1 m ρ c

set_option maxHeartbeats 4000000 in
theorem w3_arg2 : W3 (F := Ideal) m ρ c (Proc.devRef .tc main_arg2) = (m ((c : Thread nD τ).loc main_arg2)) := by
  show StableHlo.after hostOps1 (W2 m ρ c) (Proc.devRef .tc main_arg2) = _
  after_results_simp
  exact w2_arg2 m ρ c

set_option maxHeartbeats 4000000 in
theorem w3_arg6 : W3 (F := Ideal) m ρ c (Proc.devRef .tc main_arg6) = (m ((c : Thread nD τ).loc main_arg6)) := by
  show StableHlo.after hostOps1 (W2 m ρ c) (Proc.devRef .tc main_arg6) = _
  after_results_simp
  exact w2_arg6 m ρ c

set_option maxHeartbeats 4000000 in
theorem w3_arg7 : W3 (F := Ideal) m ρ c (Proc.devRef .tc main_arg7) = (m ((c : Thread nD τ).loc main_arg7)) := by
  show StableHlo.after hostOps1 (W2 m ρ c) (Proc.devRef .tc main_arg7) = _
  after_results_simp
  exact w2_arg7 m ρ c

set_option maxHeartbeats 4000000 in
theorem w3_arg8 : W3 (F := Ideal) m ρ c (Proc.devRef .tc main_arg8) = (m ((c : Thread nD τ).loc main_arg8)) := by
  show StableHlo.after hostOps1 (W2 m ρ c) (Proc.devRef .tc main_arg8) = _
  after_results_simp
  exact w2_arg8 m ρ c

set_option maxHeartbeats 4000000 in
theorem w3_arg9 : W3 (F := Ideal) m ρ c (Proc.devRef .tc main_arg9) = (m ((c : Thread nD τ).loc main_arg9)) := by
  show StableHlo.after hostOps1 (W2 m ρ c) (Proc.devRef .tc main_arg9) = _
  after_results_simp
  exact w2_arg9 m ρ c

set_option maxHeartbeats 4000000 in
theorem w3_arg10 : W3 (F := Ideal) m ρ c (Proc.devRef .tc main_arg10) = (m ((c : Thread nD τ).loc main_arg10)) := by
  show StableHlo.after hostOps1 (W2 m ρ c) (Proc.devRef .tc main_arg10) = _
  after_results_simp
  exact w2_arg10 m ρ c

set_option maxHeartbeats 4000000 in
theorem w3_arg11 : W3 (F := Ideal) m ρ c (Proc.devRef .tc main_arg11) = (m ((c : Thread nD τ).loc main_arg11)) := by
  show StableHlo.after hostOps1 (W2 m ρ c) (Proc.devRef .tc main_arg11) = _
  after_results_simp
  exact w2_arg11 m ρ c

/-! ## The second pipeline: layer 1 -/

theorem w4_v30 : W4 (F := Ideal) m ρ c (Proc.devRef .tc main_v30) = (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 6).trans ((Blocks.final1 (V3 m ρ) c).trans ?_)
  show denseRelu (W3 m ρ c (Proc.devRef .tc main_v19)) (W3 m ρ c (Proc.devRef .tc main_v29)) (W3 m ρ c (Proc.devRef .tc main_v8))
    (W3 m ρ c (Proc.devRef .tc main_arg6)) (W3 m ρ c (Proc.devRef .tc main_arg7)) (W3 m ρ c (Proc.devRef .tc main_arg8)) = _
  rw [w3_v19, w3_v29, w3_v8, w3_arg6, w3_arg7, w3_arg8]
  rfl

theorem w4_arg1 : W4 (F := Ideal) m ρ c (Proc.devRef .tc main_arg1) = (m ((c : Thread nD τ).loc main_arg1)) :=
  (W4_keep m ρ c main_arg1 (by decide)).trans (w3_arg1 m ρ c)
theorem w4_arg2 : W4 (F := Ideal) m ρ c (Proc.devRef .tc main_arg2) = (m ((c : Thread nD τ).loc main_arg2)) :=
  (W4_keep m ρ c main_arg2 (by decide)).trans (w3_arg2 m ρ c)
theorem w4_arg9 : W4 (F := Ideal) m ρ c (Proc.devRef .tc main_arg9) = (m ((c : Thread nD τ).loc main_arg9)) :=
  (W4_keep m ρ c main_arg9 (by decide)).trans (w3_arg9 m ρ c)
theorem w4_arg10 : W4 (F := Ideal) m ρ c (Proc.devRef .tc main_arg10) = (m ((c : Thread nD τ).loc main_arg10)) :=
  (W4_keep m ρ c main_arg10 (by decide)).trans (w3_arg10 m ρ c)
theorem w4_arg11 : W4 (F := Ideal) m ρ c (Proc.devRef .tc main_arg11) = (m ((c : Thread nD τ).loc main_arg11)) :=
  (W4_keep m ρ c main_arg11 (by decide)).trans (w3_arg11 m ρ c)
theorem w4_v8 : W4 (F := Ideal) m ρ c (Proc.devRef .tc main_v8) = invDeg (m ((c : Thread nD τ).loc main_arg2)) :=
  (W4_keep m ρ c main_v8 (by decide)).trans (w3_v8 m ρ c)

/-! ## The third pipeline: the product with the last neighbour weights -/

theorem w5_v31 : W5 (F := Ideal) m ρ c (Proc.devRef .tc main_v31) = mmMat (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) := by
  refine (W5_arr m ρ c 2).trans ((Blocks.final2 (V4 m ρ) c).trans ?_)
  show mmMat (W4 m ρ c (Proc.devRef .tc main_v30)) (W4 m ρ c (Proc.devRef .tc main_arg10)) = _
  rw [w4_v30, w4_arg10]

theorem w5_arg1 : W5 (F := Ideal) m ρ c (Proc.devRef .tc main_arg1) = (m ((c : Thread nD τ).loc main_arg1)) :=
  (W5_keep m ρ c main_arg1 (by decide)).trans (w4_arg1 m ρ c)
theorem w5_arg2 : W5 (F := Ideal) m ρ c (Proc.devRef .tc main_arg2) = (m ((c : Thread nD τ).loc main_arg2)) :=
  (W5_keep m ρ c main_arg2 (by decide)).trans (w4_arg2 m ρ c)
theorem w5_arg9 : W5 (F := Ideal) m ρ c (Proc.devRef .tc main_arg9) = (m ((c : Thread nD τ).loc main_arg9)) :=
  (W5_keep m ρ c main_arg9 (by decide)).trans (w4_arg9 m ρ c)
theorem w5_arg11 : W5 (F := Ideal) m ρ c (Proc.devRef .tc main_arg11) = (m ((c : Thread nD τ).loc main_arg11)) :=
  (W5_keep m ρ c main_arg11 (by decide)).trans (w4_arg11 m ρ c)
theorem w5_v8 : W5 (F := Ideal) m ρ c (Proc.devRef .tc main_v8) = invDeg (m ((c : Thread nD τ).loc main_arg2)) :=
  (W5_keep m ρ c main_v8 (by decide)).trans (w4_v8 m ρ c)
theorem w5_v30 : W5 (F := Ideal) m ρ c (Proc.devRef .tc main_v30) = (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W5_keep m ρ c main_v30 (by decide)).trans (w4_v30 m ρ c)

/-! ## Between the third and the fourth pipeline -/

set_option maxHeartbeats 4000000 in
theorem w6_v30 : W6 (F := Ideal) m ρ c (Proc.devRef .tc main_v30) = (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps3 (W5 m ρ c) (Proc.devRef .tc main_v30) = _
  after_results_simp
  exact w5_v30 m ρ c

set_option maxHeartbeats 4000000 in
theorem w6_v41 : W6 (F := Ideal) m ρ c (Proc.devRef .tc main_v41) = agg40 (mmMat (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10))) (m ((c : Thread nD τ).loc main_arg1)) (m ((c : Thread nD τ).loc main_arg2)) := by
  show StableHlo.after hostOps3 (W5 m ρ c) (Proc.devRef .tc main_v41) = _
  after_results_simp
  rw [w5_v31, w5_arg1, w5_arg2]
  rfl

set_option maxHeartbeats 4000000 in
theorem w6_v8 : W6 (F := Ideal) m ρ c (Proc.devRef .tc main_v8) = invDeg (m ((c : Thread nD τ).loc main_arg2)) := by
  show StableHlo.after hostOps3 (W5 m ρ c) (Proc.devRef .tc main_v8) = _
  after_results_simp
  exact w5_v8 m ρ c

set_option maxHeartbeats 4000000 in
theorem w6_arg9 : W6 (F := Ideal) m ρ c (Proc.devRef .tc main_arg9) = (m ((c : Thread nD τ).loc main_arg9)) := by
  show StableHlo.after hostOps3 (W5 m ρ c) (Proc.devRef .tc main_arg9) = _
  after_results_simp
  exact w5_arg9 m ρ c

set_option maxHeartbeats 4000000 in
theorem w6_arg11 : W6 (F := Ideal) m ρ c (Proc.devRef .tc main_arg11) = (m ((c : Thread nD τ).loc main_arg11)) := by
  show StableHlo.after hostOps3 (W5 m ρ c) (Proc.devRef .tc main_arg11) = _
  after_results_simp
  exact w5_arg11 m ρ c

/-! ## The fourth pipeline: the result -/

/-- The result buffer at the last boundary is the last layer, transform-then-aggregate, of the twelve arguments. -/
theorem value : W7 (F := Ideal) m ρ c (Proc.devRef .tc main_v42)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W7_arr m ρ c 5).trans ((Blocks.final3 (V6 m ρ) c).trans ?_)
  show combineMat (W6 m ρ c (Proc.devRef .tc main_v30)) (W6 m ρ c (Proc.devRef .tc main_v41)) (W6 m ρ c (Proc.devRef .tc main_v8))
    (W6 m ρ c (Proc.devRef .tc main_arg9)) (W6 m ρ c (Proc.devRef .tc main_arg11)) = _
  rw [w6_v30, w6_v41, w6_v8, w6_arg9, w6_arg11]
  rfl

end Cert.KernelIdeal.Chain

end
-- ==== Proof.RefValue.lean ====
/-
  The reference program's result is the model's aggregate-then-transform form.

  The reference computes each layer as  h · w_self + (a / d) · w_neigh + b , where `a` holds the per-destination sums
  of the rows of `h` and `d` the clamped in-degree of each node, broadcast along the row; layers 0 and 1 are then
  clamped below at zero. Entry by entry this is the model's `dense`: the two matrix products are sums over the 128
  input features, and dividing the message sum by the clamped degree (which is never zero) is multiplying it by the
  inverse degree. The message sums and the clamped degrees are the very host operations the model names.
-/
import proofs.«168502_j77575699300503_2_alg».proof.Proof.Gen.ReferenceIdeal.Read
import proofs.«168502_j77575699300503_2_alg».proof.Proof.Model

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Sage

/-! ## The shared host operations, as the reference spells them -/

theorem sums0_eq (x0 : (⟨S50000x128, .f32⟩ : BufTy).Contents (Elt Ideal)) (x1 x2 : (⟨S600000, .i32⟩ : BufTy).Contents (Elt Ideal)) :
    val_main_v9 (F := Ideal) x0 x1 x2 = agg128 x0 x1 x2 := rfl
theorem degree0_eq (x2 : (⟨S600000, .i32⟩ : BufTy).Contents (Elt Ideal)) : val_main_v15 (F := Ideal) x2 = dmax x2 := rfl
theorem sums1_eq (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v35 (F := Ideal) x0 x1 x2 x3 x4 x5 = agg128 (val_main_v25 (F := Ideal) x0 x1 x2 x3 x4 x5) x1 x2 := rfl
theorem degree1_eq (x2 : (⟨S600000, .i32⟩ : BufTy).Contents (Elt Ideal)) : val_main_v41 (F := Ideal) x2 = dmax x2 := rfl
theorem sums2_eq (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v61 (F := Ideal) x0 x1 x2 x3 x4 x5 x6 x7 x8 = agg128 (val_main_v51 (F := Ideal) x0 x1 x2 x3 x4 x5 x6 x7 x8) x1 x2 := rfl
theorem degree2_eq (x2 : (⟨S600000, .i32⟩ : BufTy).Contents (Elt Ideal)) : val_main_v67 (F := Ideal) x2 = dmax x2 := rfl

/-! ## Index equations: where each operation reads its operands -/

theorem l_v19 (r : Fin 50000) (j k : Fin 128) : lidx_main_v19 (ix2 r j) k = ix2 r k :=
  funext fun a => by match a with | ⟨0, _⟩ => rfl | ⟨1, _⟩ => rfl
theorem r_v19 (r : Fin 50000) (j k : Fin 128) : ridx_main_v19 (ix2 r j) k = ix2 k j :=
  funext fun a => by match a with | ⟨0, _⟩ => rfl | ⟨1, _⟩ => rfl
theorem l_v20 (r : Fin 50000) (j k : Fin 128) : lidx_main_v20 (ix2 r j) k = ix2 r k :=
  funext fun a => by match a with | ⟨0, _⟩ => rfl | ⟨1, _⟩ => rfl
theorem r_v20 (r : Fin 50000) (j k : Fin 128) : ridx_main_v20 (ix2 r j) k = ix2 k j :=
  funext fun a => by match a with | ⟨0, _⟩ => rfl | ⟨1, _⟩ => rfl
theorem l_v45 (r : Fin 50000) (j k : Fin 128) : lidx_main_v45 (ix2 r j) k = ix2 r k :=
  funext fun a => by match a with | ⟨0, _⟩ => rfl | ⟨1, _⟩ => rfl
theorem r_v45 (r : Fin 50000) (j k : Fin 128) : ridx_main_v45 (ix2 r j) k = ix2 k j :=
  funext fun a => by match a with | ⟨0, _⟩ => rfl | ⟨1, _⟩ => rfl
theorem l_v46 (r : Fin 50000) (j k : Fin 128) : lidx_main_v46 (ix2 r j) k = ix2 r k :=
  funext fun a => by match a with | ⟨0, _⟩ => rfl | ⟨1, _⟩ => rfl
theorem r_v46 (r : Fin 50000) (j k : Fin 128) : ridx_main_v46 (ix2 r j) k = ix2 k j :=
  funext fun a => by match a with | ⟨0, _⟩ => rfl | ⟨1, _⟩ => rfl
theorem l_v71 (r : Fin 50000) (j : Fin 40) (k : Fin 128) : lidx_main_v71 (ix2 r j) k = ix2 r k :=
  funext fun a => by match a with | ⟨0, _⟩ => rfl | ⟨1, _⟩ => rfl
theorem r_v71 (r : Fin 50000) (j : Fin 40) (k : Fin 128) : ridx_main_v71 (ix2 r j) k = ix2 k j :=
  funext fun a => by match a with | ⟨0, _⟩ => rfl | ⟨1, _⟩ => rfl
theorem l_v72 (r : Fin 50000) (j : Fin 40) (k : Fin 128) : lidx_main_v72 (ix2 r j) k = ix2 r k :=
  funext fun a => by match a with | ⟨0, _⟩ => rfl | ⟨1, _⟩ => rfl
theorem r_v72 (r : Fin 50000) (j : Fin 40) (k : Fin 128) : ridx_main_v72 (ix2 r j) k = ix2 k j :=
  funext fun a => by match a with | ⟨0, _⟩ => rfl | ⟨1, _⟩ => rfl
theorem i_v17 (r : Fin 50000) (k : Fin 128) : idx_main_v17 (ix2 r k) = ix2 r (0 : Fin 1) :=
  funext fun a => by match a with | ⟨0, _⟩ => rfl | ⟨1, _⟩ => rfl
theorem i_v43 (r : Fin 50000) (k : Fin 128) : idx_main_v43 (ix2 r k) = ix2 r (0 : Fin 1) :=
  funext fun a => by match a with | ⟨0, _⟩ => rfl | ⟨1, _⟩ => rfl
theorem i_v69 (r : Fin 50000) (k : Fin 128) : idx_main_v69 (ix2 r k) = ix2 r (0 : Fin 1) :=
  funext fun a => by match a with | ⟨0, _⟩ => rfl | ⟨1, _⟩ => rfl
theorem i_v16 (r : Fin 50000) : idx_main_v16 (ix2 r (0 : Fin 1)) = ix1 r :=
  funext fun a => by match a with | ⟨0, _⟩ => rfl
theorem i_v42 (r : Fin 50000) : idx_main_v42 (ix2 r (0 : Fin 1)) = ix1 r :=
  funext fun a => by match a with | ⟨0, _⟩ => rfl
theorem i_v68 (r : Fin 50000) : idx_main_v68 (ix2 r (0 : Fin 1)) = ix1 r :=
  funext fun a => by match a with | ⟨0, _⟩ => rfl
theorem i_v23 (r : Fin 50000) (j : Fin 128) : idx_main_v23 (ix2 r j) = ix2 (0 : Fin 1) j :=
  funext fun a => by match a with | ⟨0, _⟩ => rfl | ⟨1, _⟩ => rfl
theorem i_v49 (r : Fin 50000) (j : Fin 128) : idx_main_v49 (ix2 r j) = ix2 (0 : Fin 1) j :=
  funext fun a => by match a with | ⟨0, _⟩ => rfl | ⟨1, _⟩ => rfl
theorem i_v75 (r : Fin 50000) (j : Fin 40) : idx_main_v75 (ix2 r j) = ix2 (0 : Fin 1) j :=
  funext fun a => by match a with | ⟨0, _⟩ => rfl | ⟨1, _⟩ => rfl
theorem i_v22 (j : Fin 128) : idx_main_v22 (ix2 (0 : Fin 1) j) = ix1 j :=
  funext fun a => by match a with | ⟨0, _⟩ => rfl
theorem i_v48 (j : Fin 128) : idx_main_v48 (ix2 (0 : Fin 1) j) = ix1 j :=
  funext fun a => by match a with | ⟨0, _⟩ => rfl
theorem i_v74 (j : Fin 40) : idx_main_v74 (ix2 (0 : Fin 1) j) = ix1 j :=
  funext fun a => by match a with | ⟨0, _⟩ => rfl

/-- Dividing a message sum by a clamped degree is scaling it by the inverse degree. -/
theorem div_dmax (x : EReal) (x2 : (⟨S600000, .i32⟩ : BufTy).Contents (Elt Ideal)) (r : Fin 50000) :
    Ideal.div x (dmax x2 (ix1 r)) = x * invDeg x2 (ix2 r (0 : Fin 1)) := by
  rw [invDeg_apply, mul_div_one (ne_zero_of_one_le (one_le_dmax x2 (ix1 r)))]

/-! ## The layers -/

/-- Layer 0 of the reference, clamped at zero, is the model's first hidden table. -/
theorem ref_hid1 (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5 = hid1 x0 x1 x2 x3 x4 x5 := by
  funext i
  obtain ⟨r, j, rfl⟩ : ∃ (r : Fin 50000) (j : Fin 128), i = ix2 r j := ⟨i 0, i 1, eq_ix2 i⟩
  rw [val_main_v25_apply, val_main_v24_apply, val_main_v21_apply, val_main_v19_apply, val_main_v20_apply,
    val_main_v23_apply, val_main_v22_apply, val_main_call0_v0_apply, val_main_call0_cst_apply]
  simp only [val_main_v18_apply, val_main_v17_apply, val_main_v16_apply, sums0_eq, degree0_eq, l_v19, r_v19, l_v20,
    r_v20, i_v17, i_v16, i_v23, i_v22, Ideal.addf_def, Ideal.maximumf_def, Ideal.hostDivf_def, Ideal.ofBits_def,
    Ideal.ofBits_zero_f32, div_dmax]
  rfl

/-- Layer 1 of the reference, clamped at zero, is the model's second hidden table. -/
theorem ref_hid2 (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8 = hid2 x0 x1 x2 x3 x4 x5 x6 x7 x8 := by
  funext i
  obtain ⟨r, j, rfl⟩ : ∃ (r : Fin 50000) (j : Fin 128), i = ix2 r j := ⟨i 0, i 1, eq_ix2 i⟩
  rw [val_main_v51_apply, val_main_v50_apply, val_main_v47_apply, val_main_v45_apply, val_main_v46_apply,
    val_main_v49_apply, val_main_v48_apply, val_main_call1_v0_apply, val_main_call1_cst_apply]
  simp only [val_main_v44_apply, val_main_v43_apply, val_main_v42_apply, sums1_eq, degree1_eq, ref_hid1, l_v45, r_v45, l_v46,
    r_v46, i_v43, i_v42, i_v49, i_v48, Ideal.addf_def, Ideal.maximumf_def, Ideal.hostDivf_def, Ideal.ofBits_def,
    Ideal.ofBits_zero_f32, div_dmax]
  rfl

/-- The reference's result is the model's aggregate-then-transform form. -/
theorem ref_out (x0 : (⟨S50000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 x10 : (⟨S128x40, .f32⟩ : BufTy).Contents (Elt Ideal)) (x11 : (⟨S40, .f32⟩ : BufTy).Contents (Elt Ideal)) :
    val_main_v76 (F := Ideal) x0 x1 x2 x3 x4 x5 x6 x7 x8 x9 x10 x11 = outR x0 x1 x2 x3 x4 x5 x6 x7 x8 x9 x10 x11 := by
  funext i
  obtain ⟨r, j, rfl⟩ : ∃ (r : Fin 50000) (j : Fin 40), i = ix2 r j := ⟨i 0, i 1, eq_ix2 i⟩
  rw [val_main_v76_apply, val_main_v73_apply, val_main_v71_apply, val_main_v72_apply, val_main_v75_apply, val_main_v74_apply]
  simp only [val_main_v70_apply, val_main_v69_apply, val_main_v68_apply, sums2_eq, degree2_eq, ref_hid2, l_v71, r_v71, l_v72,
    r_v72, i_v69, i_v68, i_v75, i_v74, Ideal.addf_def, Ideal.hostDivf_def, div_dmax]
  rfl

/-- The term the reference's run names is the model's aggregate-then-transform form of the arguments. -/
theorem res_eq (m : (ℓ : Loc nD τ sig) → Buf (Elt Ideal) ℓ) (c : Dev nD) :
    Cert.ReferenceIdeal.Value.res_main_v76 m c
      = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (val_main_v76_eq m c).trans (ref_out _ _ _ _ _ _ _ _ _ _ _ _)

end Cert.ReferenceIdeal.RefValue

end
-- ==== Proof.FiniteInputs.lean ====
/-
  From "every float input is finite" to "every entry of every float argument is a real number".

  The precondition is a conjunction of ten tests, one per float argument: each asks that every entry x
  of the array satisfy |x| < +∞, where |x| is max x (-x) and +∞ is the value of the pattern 0x7F800000.
  On the extended reals that pattern is the top element ⊤, and max x (-x) < ⊤ excludes exactly the two
  infinite values: at x = ⊤ the maximum is ⊤ itself, and at x = ⊥ it is -⊥ = ⊤. What remains is the
  image of the real numbers, which is what AllReal asks entry by entry.

  The conjunction of all the entries' tests is a reduction by "and" over every axis, started at 1; such a
  reduction is 1 only if each of its operands is 1, so the test holds at every index of the array.
-/
import Idealize.ShloMosaic.Lib.ReduceAll
import Idealize.ShloMosaic.PureOps.Ideal
import Idealize.ShloMosaic.PureOps.Ideal.Laws
import Idealize.ShloMosaic.Lib.ValueIdx
import proofs.«168502_j77575699300503_2_alg».proof.Pre_finite_inputs
import proofs.«168502_j77575699300503_2_alg».proof.Proof.Spec

noncomputable section

namespace Cert.Finite

open Idealize.ShloMosaic Idealize.ShloMosaic.ValueIdx Cert.Sage

/-- A rank-0 array has exactly one index: there is no axis to give a coordinate on. -/
local instance : Subsingleton Cert.Pre_finite_inputs.S_.Idx := ⟨fun a b => funext fun d => d.elim0⟩

/-- The one-bit word of a truth value is 1 exactly when the truth value is true. -/
theorem ofBool_eq_one (b : Bool) : BitVec.ofBool b = 1#1 ↔ b = true := by cases b <;> decide

/-- An extended real x with max x (-x) < ⊤ is a real number: ⊤ fails the test because max ⊤ (-⊤) = ⊤,
    and ⊥ fails it because max ⊥ (-⊥) = -⊥ = ⊤. The pattern 0x7F800000 denotes ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hT : Ideal.ofBits .f32 0x7F800000#32 = (⊤ : EReal) := by simp [Ideal.ofBits, Ideal.ieee]
  rw [Ideal.hostAbsf_def, Ideal.cmpf_def, Ideal.absf_def, Ideal.ofBits_def, hT] at h
  simp only [Ideal.cmp, ofBool_eq_one, decide_eq_true_eq] at h
  induction x using EReal.rec with
  | bot => simp at h
  | coe r => exact ⟨r, rfl⟩
  | top => simp at h

/-- One argument's test, for an array of any shape: if the "and" over all axes of the entrywise tests
    |x i| < +∞ is 1, then every entry of x is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) : AllReal x := by
  intro i
  have hi := Host.reduce_andi_all _ _ hr hu ix0 e i
  exact real_of_abs_lt (x i) hi

/-- The precondition, read back: its value at the one index of the rank-0 result is a nested "and" of the
    ten per-argument tests (the two integer arguments carry none); an "and" of one-bit words is 1 exactly
    when both are, so each test is 1, and each then makes its argument entrywise real. -/
theorem of_pre [hP : Cert.Pre_finite_inputs.Facts]
    (a0 : Mat 50000 128) (a1 a2 : IVec (⟨1, ![600000]⟩ : Shape) 32)
    (a3 a4 : Mat 128 128) (a5 : Col 128) (a6 a7 : Mat 128 128) (a8 : Col 128)
    (a9 a10 : Mat 128 40) (a11 : Col 40)
    (h : Cert.Pre_finite_inputs.fn (F := Ideal) a0 a1 a2 a3 a4 a5 a6 a7 a8 a9 a10 a11 = fun _ => 1#1) :
    AllReal a0 ∧ AllReal a3 ∧ AllReal a4 ∧ AllReal a5 ∧ AllReal a6 ∧ AllReal a7 ∧ AllReal a8 ∧ AllReal a9 ∧ AllReal a10 ∧ AllReal a11 := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e3⟩, e4⟩, e5⟩, e6⟩, e7⟩, e8⟩, e9⟩, e10⟩, e11⟩ := h0
  exact ⟨allReal_of_all a0 _ _ _ e0, allReal_of_all a3 _ _ _ e3, allReal_of_all a4 _ _ _ e4,
    allReal_of_all a5 _ _ _ e5, allReal_of_all a6 _ _ _ e6, allReal_of_all a7 _ _ _ e7,
    allReal_of_all a8 _ _ _ e8, allReal_of_all a9 _ _ _ e9, allReal_of_all a10 _ _ _ e10,
    allReal_of_all a11 _ _ _ e11⟩

end Cert.Finite
-- ==== Proof.lean ====
/-
  A three-layer GraphSAGE network with mean aggregation: the Pallas kernel program and its jnp reference return the
  same table on the extended reals, whenever every float input is finite.

  Both programs form, on the host, the per-destination sums of the source rows of the node table (a gather followed by
  an accumulating scatter over the 600000 edges) and the in-degree of every node clamped below at one. The reference
  divides the message sums by the clamped degree; the kernel multiplies them, inside its dense pipelines, by the inverse
  clamped degree, which the host computed once. A clamped degree is never zero, so the two are the same number on every
  extended real, and layers 0 and 1 (each clamped below at zero) agree entry by entry with no appeal to finiteness.

  In the last layer the kernel first multiplies the hidden table by the neighbour weights (a 40-wide product) and then
  sums the transformed rows per destination, while the reference sums the 128-wide rows and multiplies afterwards. The
  two agree because a finite sum over edges commutes with the matrix product — for real numbers. This is where the
  precondition is used: finite inputs make both hidden tables real (finite sums and products of real numbers, the
  inverse clamped degrees being real), and then the exchange of the two sums is an identity of real numbers.

  The kernel program's value is read off its four grid pipelines block by block (each output block is the dense layer,
  the product or the combination of the blocks it loaded; the ten blocks of 5000 rows cover the table) and off the host
  stretches between them; the reference's value is its host operations read entry by entry. The three frame claims are
  the programs' runs with the results dropped, and the kernel program is its own idealization (no rewrite was made).
-/
import proofs.«168502_j77575699300503_2_alg».proof.Defs
import proofs.«168502_j77575699300503_2_alg».proof.Proof.Gen.Kernel
import proofs.«168502_j77575699300503_2_alg».proof.Proof.Gen.Kernel.Skeleton
import proofs.«168502_j77575699300503_2_alg».proof.Proof.Gen.Kernel.Launch
import proofs.«168502_j77575699300503_2_alg».proof.Proof.Gen.Kernel.Points
import proofs.«168502_j77575699300503_2_alg».proof.Proof.Gen.Kernel.Frame
import proofs.«168502_j77575699300503_2_alg».proof.Proof.Gen.KernelIdeal
import proofs.«168502_j77575699300503_2_alg».proof.Proof.Gen.KernelIdeal.Skeleton
import proofs.«168502_j77575699300503_2_alg».proof.Proof.Gen.KernelIdeal.Launch
import proofs.«168502_j77575699300503_2_alg».proof.Proof.Gen.KernelIdeal.Points
import proofs.«168502_j77575699300503_2_alg».proof.Proof.Gen.KernelIdeal.Frame
import proofs.«168502_j77575699300503_2_alg».proof.Proof.Gen.ReferenceIdeal
import proofs.«168502_j77575699300503_2_alg».proof.Proof.Gen.Pre_finite_inputs
import proofs.«168502_j77575699300503_2_alg».proof.Proof.Gen.ReferenceIdeal.Run
import proofs.«168502_j77575699300503_2_alg».proof.Proof.Gen.ReferenceIdeal.Read
import proofs.«168502_j77575699300503_2_alg».proof.Proof.KernelRun
import proofs.«168502_j77575699300503_2_alg».proof.Proof.KernelValue
import proofs.«168502_j77575699300503_2_alg».proof.Proof.RefValue
import proofs.«168502_j77575699300503_2_alg».proof.Proof.FiniteInputs
import proofs.«168502_j77575699300503_2_alg».proof.Proof.Model
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the model's result: the kernel program with its
    transform-then-aggregate form, the reference with its aggregate-then-transform form, equal on finite inputs. -/
theorem algebraic : Cert.algebraic_KernelIdeal_ReferenceIdeal := by
  intro m ρ m' ρ' hpre hagree
  refine ⟨fun c => Cert.Sage.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    obtain ⟨h0, h3, h4, h5, h6, h7, h8, _, h10, _⟩ := Cert.Finite.of_pre _ _ _ _ _ _ _ _ _ _ _ _ (hpre c)
    rw [Cert.ReferenceIdeal.RefValue.res_eq, e0, e1, e2, e3, e4, e5, e6, e7, e8, e9, e10, e11]
    exact (Cert.Sage.outK_eq_outR _ _ _ _ h0 h3 h4 h5 h6 h7 h8 h10).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
